-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x32 : Shape := ⟨2, ![100000, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S100000x128 .f32) (main_arg1 : FVec F S100000x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S100000x128 : Shape := ⟨2, ![100000, 128]⟩
abbrev S100000x32 : Shape := ⟨2, ![100000, 32]⟩
abbrev S2x32x128 : Shape := ⟨3, ![2, 32, 128]⟩
abbrev S2x1x32 : Shape := ⟨3, ![2, 1, 32]⟩
abbrev S10000x128 : Shape := ⟨2, ![10000, 128]⟩
abbrev S10000x32 : Shape := ⟨2, ![10000, 32]⟩
abbrev S1x32x128 : Shape := ⟨3, ![1, 32, 128]⟩
abbrev S1x1x32 : Shape := ⟨3, ![1, 1, 32]⟩
abbrev S32x128 : Shape := ⟨2, ![32, 128]⟩
abbrev S1x32 : Shape := ⟨2, ![1, 32]⟩
abbrev S10000 : Shape := ⟨1, ![10000]⟩
abbrev S10000x1 : Shape := ⟨2, ![10000, 1]⟩
abbrev S32 : Shape := ⟨1, ![32]⟩
abbrev S_ : Shape := ⟨0, ![]⟩
abbrev S32x1 : Shape := ⟨2, ![32, 1]⟩

abbrev nBuf : Space → Nat
  | .hbm => 35
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S2x32x128, .f32⟩
  | .hbm, ⟨3, _⟩ => ⟨S2x1x32, .f32⟩
  | .hbm, ⟨4, _⟩ => ⟨S2x1x32, .f32⟩
  | .hbm, ⟨5, _⟩ => ⟨S_, .f32⟩
  | .hbm, ⟨6, _⟩ => ⟨S32x128, .f32⟩
  | .hbm, ⟨7, _⟩ => ⟨S_, .f32⟩
  | .hbm, ⟨8, _⟩ => ⟨S1x32, .f32⟩
  | .hbm, ⟨9, _⟩ => ⟨S_, .f32⟩
  | .hbm, ⟨10, _⟩ => ⟨S1x32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x128, .f32⟩
  | .hbm, ⟨16, _⟩ => ⟨S32x128, .f32⟩
  | .hbm, ⟨17, _⟩ => ⟨S32x128, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S_, .f32⟩
  | .hbm, ⟨23, _⟩ => ⟨S32x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x32, .f32⟩
  | .local _ .vmem, ⟨3, _⟩ => ⟨S10000x32, .f32⟩
  | .local _ .vmem, ⟨4, _⟩ => ⟨S1x32x128, .f32⟩
  | .local _ .vmem, ⟨5, _⟩ => ⟨S1x32x128, .f32⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S10000x128_S10000x128_0_0 : ∀ a, (![0, 0] : Fin 2 → Nat) a + S10000x128.size a ≤ S10000x128.size a
  h_S10000x128 : 0 < S10000x128.numel
  inb_S10000x32_S10000x32_0_0 : ∀ a, (![0, 0] : Fin 2 → Nat) a + S10000x32.size a ≤ S10000x32.size a
  h_S10000x32 : 0 < S10000x32.numel
  reduces_S10000x128_S10000 : S10000x128.Reduces [1] S10000
  shapeCasts_S10000_S10000x1 : S10000.ShapeCasts S10000x1
  reduces_S10000x32_S32 : S10000x32.Reduces [0] S32
  shapeCasts_S32_S1x32 : S32.ShapeCasts S1x32
  broadcasts_S10000x1_S10000x32 : S10000x1.Broadcasts S10000x32
  reducesTo_S2x32x128_S32x128_d0 : S2x32x128.ReducesTo [0] S32x128
  h_S_ : 0 < S_.numel
  reducesTo_S2x1x32_S1x32_d0 : S2x1x32.ReducesTo [0] S1x32
  shapeCasts_S1x32_S32x1 : S1x32.ShapeCasts S32x1
  bcast_S_S32x1 : S_.BroadcastsInDim S32x1 (![] : Fin 0 → Fin S32x1.rank)
  bcast_S32x1_S32x128_0_1 : S32x1.BroadcastsInDim S32x128 (![0, 1] : Fin 2 → Fin S32x128.rank)
  reducesTo_S32x128_S32_d1 : S32x128.ReducesTo [1] S32
  shapeCasts_S1x32_S32 : S1x32.ShapeCasts S32
  reducesTo_S1x32_S_d0_1 : S1x32.ReducesTo [0, 1] S_
  reducesTo_S32x128_S_d0_1 : S32x128.ReducesTo [0, 1] S_
  reducesTo_S32_S_d0 : S32.ReducesTo [0] S_
  dot_S10000x32_S10000x128_S32x128_0_0_1_1_n_n_wf : DotDims.WF S10000x32 S10000x128 S32x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S2x32x128.size a
  hwx0_2 : ∀ i : grid0.Coords, EltTy.bits .f32 = 32 ∨ (Rect.block (s := S2x32x128) S1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S2x1x32.size a
  hwx0_3 : ∀ i : grid0.Coords, EltTy.bits .f32 = 32 ∨ (Rect.block (s := S2x1x32) S1x1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S2x1x32.size a
  hwx0_4 : ∀ i : grid0.Coords, EltTy.bits .f32 = 32 ∨ (Rect.block (s := S2x1x32) S1x1x32.size (cc0_transform_4 i) (hinb0_4 i)).WholeWords (EltTy.packing .f32)

variable [Facts₀]

def dot_S10000x32_S10000x128_S32x128_0_0_1_1_n_n : DotDims S10000x32 S10000x128 S32x128 where
  lhsContracting := [0]
  rhsContracting := [0]
  lhsNonContracting := [1]
  rhsNonContracting := [1]
  lhsBatch := []
  rhsBatch := []
  wf := dot_S10000x32_S10000x128_S32x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x32 : Shape := ⟨2, ![100000, 32]⟩
abbrev S_ : Shape := ⟨0, ![]⟩
abbrev S32x128 : Shape := ⟨2, ![32, 128]⟩
abbrev S32 : Shape := ⟨1, ![32]⟩
abbrev S32x1 : Shape := ⟨2, ![32, 1]⟩
abbrev S100000 : Shape := ⟨1, ![100000]⟩
abbrev S100000x1 : Shape := ⟨2, ![100000, 1]⟩
abbrev S1x32 : Shape := ⟨2, ![1, 32]⟩
abbrev S128x32 : Shape := ⟨2, ![128, 32]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S_, .f32⟩
  | .hbm, ⟨3, _⟩ => ⟨S100000x32, .f32⟩
  | .hbm, ⟨4, _⟩ => ⟨S100000x32, .f32⟩
  | .hbm, ⟨5, _⟩ => ⟨S32x128, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x128, .f32⟩
  | .hbm, ⟨13, _⟩ => ⟨S32x128, .f32⟩
  | .hbm, ⟨14, _⟩ => ⟨S100000x128, .f32⟩
  | .hbm, ⟨15, _⟩ => ⟨S_, .f32⟩
  | .hbm, ⟨16, _⟩ => ⟨S100000, .f32⟩
  | .hbm, ⟨17, _⟩ => ⟨S100000x1, .f32⟩
  | .hbm, ⟨18, _⟩ => ⟨S32x128, .f32⟩
  | .hbm, ⟨19, _⟩ => ⟨S_, .f32⟩
  | .hbm, ⟨20, _⟩ => ⟨S32, .f32⟩
  | .hbm, ⟨21, _⟩ => ⟨S1x32, .f32⟩
  | .hbm, ⟨22, _⟩ => ⟨S128x32, .f32⟩
  | .hbm, ⟨23, _⟩ => ⟨S100000x32, .f32⟩
  | .hbm, ⟨24, _⟩ => ⟨S_, .f32⟩
  | .hbm, ⟨25, _⟩ => ⟨S100000x32, .f32⟩
  | .hbm, ⟨26, _⟩ => ⟨S100000x32, .f32⟩
  | .hbm, ⟨27, _⟩ => ⟨S100000x32, .f32⟩
  | .hbm, ⟨28, _⟩ => ⟨S100000x32, .f32⟩
  | .hbm, ⟨29, _⟩ => ⟨S100000x32, .f32⟩
  | .hbm, ⟨30, _⟩ => ⟨S100000x32, .f32⟩
  | .hbm, ⟨31, _⟩ => ⟨S100000x32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S100000x32 : S_.BroadcastsInDim S100000x32 (![] : Fin 0 → Fin S100000x32.rank)
  reducesTo_S100000x32_S32_d0 : S100000x32.ReducesTo [0] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  reducesTo_S100000x128_S100000_d1 : S100000x128.ReducesTo [1] S100000
  bcast_S100000_S100000x1_0 : S100000.BroadcastsInDim S100000x1 (![0] : Fin 1 → Fin S100000x1.rank)
  reducesTo_S32x128_S32_d1 : S32x128.ReducesTo [1] S32
  bcast_S32_S1x32_1 : S32.BroadcastsInDim S1x32 (![1] : Fin 1 → Fin S1x32.rank)
  transposes_S32x128_S128x32_1_0 : S32x128.Transposes [1, 0] S128x32
  bcast_S100000x1_S100000x32_0_1 : S100000x1.BroadcastsInDim S100000x32 (![0, 1] : Fin 2 → Fin S100000x32.rank)
  bcast_S1x32_S100000x32_0_1 : S1x32.BroadcastsInDim S100000x32 (![0, 1] : Fin 2 → Fin S100000x32.rank)
  reducesTo_S100000x32_S_d0_1 : S100000x32.ReducesTo [0, 1] S_
  dot_S100000x32_S100000x128_S32x128_0_0_1_1_n_n_wf : DotDims.WF S100000x32 S100000x128 S32x128 [0] [0] [1] [1] [] []
  dot_S100000x128_S128x32_S100000x32_1_0_0_1_n_n_wf : DotDims.WF S100000x128 S128x32 S100000x32 [1] [0] [0] [1] [] []

variable [Facts₀]

def dot_S100000x32_S100000x128_S32x128_0_0_1_1_n_n : DotDims S100000x32 S100000x128 S32x128 where
  lhsContracting := [0]
  rhsContracting := [0]
  lhsNonContracting := [1]
  rhsNonContracting := [1]
  lhsBatch := []
  rhsBatch := []
  wf := dot_S100000x32_S100000x128_S32x128_0_0_1_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.Spec.lean ====
/-
  The two closed forms of the weighted clustering loss, as functions of the sample matrix
  `X` (100000 samples of 128 features) and a matrix of membership weights `Wm` (100000 samples by 32 clusters),
  on the extended reals.

  With  N k f = ∑ b, Wm b k * X b f   (the weighted feature sums),
        D k   = ∑ b, Wm b k           (the cluster masses),
        C k f = N k f / (D k + ε)     (the centroids),
  the DIRECT form sums, over every sample b and cluster k, the squared distance
  ‖X b‖² − 2·⟨X b, C k⟩ + ‖C k‖²  weighted by Wm b k; the COLLAPSED form distributes that sum into
  three terms that need the samples only through N, D and  S k = ∑ b, Wm b k * ‖X b‖²:
     ∑ k, S k  +  (−2)·∑ k f, C k f * N k f  +  ∑ k, ‖C k‖² * D k.
  Both are divided by the same count. On real entries the two are equal (distributivity and an
  exchange of finite sums); that is proved elsewhere, this module only names the terms.
-/
import Idealize.ShloMosaic.PureOps.Ideal

noncomputable section

namespace Cert.Spec

open Idealize.ShloMosaic

/-- The regulariser ε added to a cluster's mass (the f32 word nearest 1e-8). -/
def eps : EReal := Ideal.ofBits .f32 0x322BCC77#32
/-- The f32 word of 2. -/
def two : EReal := Ideal.ofBits .f32 0x40000000#32
/-- The f32 word of −2. -/
def negTwo : EReal := Ideal.ofBits .f32 0xC0000000#32
/-- The f32 word of the count 100000 · 32 the loss is averaged over. -/
def cnt : EReal := Ideal.ofBits .f32 0x4A435000#32

variable (X : Fin 100000 → Fin 128 → EReal) (Wm : Fin 100000 → Fin 32 → EReal)

/-- N k f: the weighted sum of feature f over the samples, for cluster k. -/
def num (k : Fin 32) (f : Fin 128) : EReal := ∑ b : Fin 100000, Wm b k * X b f
/-- D k: the mass of cluster k. -/
def mass (k : Fin 32) : EReal := ∑ b : Fin 100000, Wm b k
/-- C k f: the centroid of cluster k, the weighted sum over the regularised mass. -/
def centroid (k : Fin 32) (f : Fin 128) : EReal := Ideal.div (num X Wm k f) (mass Wm k + eps)
/-- ‖X b‖²: the squared norm of sample b. -/
def sqNorm (b : Fin 100000) : EReal := ∑ f : Fin 128, X b f * X b f
/-- ‖C k‖²: the squared norm of centroid k. -/
def cSq (k : Fin 32) : EReal := ∑ f : Fin 128, centroid X Wm k f * centroid X Wm k f
/-- S k: the weighted sum of the samples' squared norms, for cluster k. -/
def wNorm (k : Fin 32) : EReal := ∑ b : Fin 100000, Wm b k * sqNorm X b

/-- The collapsed form: three terms over the clusters. -/
def closedLoss : EReal :=
  Ideal.div ((∑ k : Fin 32, wNorm X Wm k)
      + negTwo * (∑ k : Fin 32, ∑ f : Fin 128, centroid X Wm k f * num X Wm k f)
      + (∑ k : Fin 32, cSq X Wm k * mass Wm k)) cnt

/-- The direct form: the weighted squared distances, summed over samples and clusters. -/
def directLoss : EReal :=
  Ideal.div (∑ b : Fin 100000, ∑ k : Fin 32,
      ((sqNorm X b - two * (∑ f : Fin 128, X b f * centroid X Wm k f)) + cSq X Wm k) * Wm b k) cnt

/-- The weights as the kernel forms them: the square as a product. -/
def sq (W : Fin 100000 → Fin 32 → EReal) : Fin 100000 → Fin 32 → EReal := fun b k => W b k * W b k
/-- The weights as the reference forms them: the power with exponent the word of 2. -/
def pw (W : Fin 100000 → Fin 32 → EReal) : Fin 100000 → Fin 32 → EReal := fun b k => Ideal.pow (W b k) two

end Cert.Spec

end
-- ==== Proof.RefForm.lean ====
import proofs.«172377_j24189255811658_2_alg».proof.Proof.Gen.ReferenceIdeal.Read
import proofs.«172377_j24189255811658_2_alg».proof.Proof.Spec

noncomputable section

namespace Cert.RefForm

open Cert.ReferenceIdeal Cert.ReferenceIdeal.Read Idealize.ShloMosaic Idealize.ShloMosaic.ValueIdx
open scoped BigOperators

variable (x0 : (⟨S100000x128, .f32⟩ : BufTy).Contents (Elt Ideal)) (x1 : (⟨S100000x32, .f32⟩ : BufTy).Contents (Elt Ideal))

/-- The sample matrix by coordinates. -/
abbrev X : Fin 100000 → Fin 128 → EReal := fun b f => x0 (ix2 b f)
/-- The raw weights by coordinates. -/
abbrev W : Fin 100000 → Fin 32 → EReal := fun b k => x1 (ix2 b k)
/-- The membership weights: the raw weights raised to the power 2. -/
abbrev Wm : Fin 100000 → Fin 32 → EReal := Cert.Spec.pw (W x1)

/-- Stage 1 at (b, k): the weight W b k raised to the power 2. -/
theorem v1_at (b : Fin 100000) (k : Fin 32) :
    val_main_v1 (F := Ideal) x1 (ix2 b k) = Wm x1 b k := by
  rw [val_main_v1_apply, val_main_v0_apply, val_main_cst_apply]
  rfl

/-- Stage 2 at (k, f): the contraction over the samples, N k f = ∑ b, Wm b k * X b f. -/
theorem v2_at (k : Fin 32) (f : Fin 128) :
    val_main_v2 (F := Ideal) x0 x1 (ix2 k f) = Cert.Spec.num (X x0) (Wm x1) k f := by
  rw [val_main_v2_apply]
  unfold Cert.Spec.num
  refine Finset.sum_congr rfl fun b _ => ?_
  have e1 : lidx_main_v2 (ix2 k f) b = ix2 b k :=
    funext fun a => Fin.ext (by match a with | ⟨0, _⟩ => rfl | ⟨1, _⟩ => rfl)
  have e2 : ridx_main_v2 (ix2 k f) b = ix2 b f :=
    funext fun a => Fin.ext (by match a with | ⟨0, _⟩ => rfl | ⟨1, _⟩ => rfl)
  rw [e1, e2, v1_at]

/-- Stage 3 at k: the column sum of the weights, D k = ∑ b, Wm b k (the zero initial value drops). -/
theorem v3_at (k : Fin 32) :
    val_main_v3 (F := Ideal) x1 (ix1 k) = Cert.Spec.mass (Wm x1) k := by
  rw [val_main_v3_apply, val_main_cst_0_apply, Ideal.ofBits_def, Ideal.ofBits_zero_f32, zero_add]
  unfold Cert.Spec.mass
  refine Finset.sum_congr rfl fun b _ => ?_
  have e1 : idx_main_v3 (ix1 k) b = ix2 b k :=
    funext fun a => Fin.ext (by match a with | ⟨0, _⟩ => rfl | ⟨1, _⟩ => rfl)
  rw [e1, v1_at]

/-- Stage 6 at (k, 0): the regularised mass D k + ε. -/
theorem v6_at (k : Fin 32) (u : Fin 1) :
    val_main_v6 (F := Ideal) x1 (ix2 k u) = Cert.Spec.mass (Wm x1) k + Cert.Spec.eps := by
  rw [val_main_v6_apply, val_main_v4_apply, val_main_v5_apply, val_main_cst_1_apply]
  have e1 : idx_main_v4 (ix2 k u) = ix1 k :=
    funext fun a => Fin.ext (by match a with | ⟨0, _⟩ => rfl)
  rw [e1, v3_at]
  rfl

/-- Stage 7 at (k, f): the regularised mass of row k, repeated along the features. -/
theorem v7_at (k : Fin 32) (f : Fin 128) :
    val_main_v7 (F := Ideal) x1 (ix2 k f) = Cert.Spec.mass (Wm x1) k + Cert.Spec.eps := by
  rw [val_main_v7_apply]
  have e1 : idx_main_v7 (ix2 k f) = ix2 k (0 : Fin 1) :=
    funext fun a => Fin.ext (by match a with | ⟨0, _⟩ => rfl | ⟨1, _⟩ => rfl)
  rw [e1, v6_at]

/-- Stage 8 at (k, f): the centroid C k f = N k f / (D k + ε). -/
theorem v8_at (k : Fin 32) (f : Fin 128) :
    val_main_v8 (F := Ideal) x0 x1 (ix2 k f) = Cert.Spec.centroid (X x0) (Wm x1) k f := by
  rw [val_main_v8_apply, v2_at, v7_at]
  rfl

/-- Stage 10 at b: the squared norm of sample b. -/
theorem v10_at (b : Fin 100000) :
    val_main_v10 (F := Ideal) x0 (ix1 b) = Cert.Spec.sqNorm (X x0) b := by
  rw [val_main_v10_apply, val_main_cst_2_apply, Ideal.ofBits_def, Ideal.ofBits_zero_f32, zero_add]
  unfold Cert.Spec.sqNorm
  refine Finset.sum_congr rfl fun f _ => ?_
  have e1 : idx_main_v10 (ix1 b) f = ix2 b f :=
    funext fun a => Fin.ext (by match a with | ⟨0, _⟩ => rfl | ⟨1, _⟩ => rfl)
  rw [e1, val_main_v9_apply]
  rfl

/-- Stage 13 at k: the squared norm of centroid k. -/
theorem v13_at (k : Fin 32) :
    val_main_v13 (F := Ideal) x0 x1 (ix1 k) = Cert.Spec.cSq (X x0) (Wm x1) k := by
  rw [val_main_v13_apply, val_main_cst_3_apply, Ideal.ofBits_def, Ideal.ofBits_zero_f32, zero_add]
  unfold Cert.Spec.cSq
  refine Finset.sum_congr rfl fun f _ => ?_
  have e1 : idx_main_v13 (ix1 k) f = ix2 k f :=
    funext fun a => Fin.ext (by match a with | ⟨0, _⟩ => rfl | ⟨1, _⟩ => rfl)
  rw [e1, val_main_v12_apply, v8_at]
  rfl

/-- Stage 16 at (b, k): the inner product of sample b with centroid k (read through the transpose). -/
theorem v16_at (b : Fin 100000) (k : Fin 32) :
    val_main_v16 (F := Ideal) x0 x1 (ix2 b k)
      = ∑ f : Fin 128, X x0 b f * Cert.Spec.centroid (X x0) (Wm x1) k f := by
  rw [val_main_v16_apply]
  refine Finset.sum_congr rfl fun f _ => ?_
  have e1 : lidx_main_v16 (ix2 b k) f = ix2 b f :=
    funext fun a => Fin.ext (by match a with | ⟨0, _⟩ => rfl | ⟨1, _⟩ => rfl)
  have e2 : ridx_main_v16 (ix2 b k) f = ix2 f k :=
    funext fun a => Fin.ext (by match a with | ⟨0, _⟩ => rfl | ⟨1, _⟩ => rfl)
  have e3 : idx_main_v15 (ix2 f k) = ix2 k f :=
    funext fun a => Fin.ext (by match a with | ⟨0, _⟩ => rfl | ⟨1, _⟩ => rfl)
  rw [e1, e2, val_main_v15_apply, e3, v8_at]

/-- Stage 23 at (b, k): the weighted squared distance (‖X b‖² − 2·⟨X b, C k⟩ + ‖C k‖²) · Wm b k. -/
theorem v23_at (b : Fin 100000) (k : Fin 32) :
    val_main_v23 (F := Ideal) x0 x1 (ix2 b k)
      = ((Cert.Spec.sqNorm (X x0) b
            - Cert.Spec.two * (∑ f : Fin 128, X x0 b f * Cert.Spec.centroid (X x0) (Wm x1) k f))
          + Cert.Spec.cSq (X x0) (Wm x1) k) * Wm x1 b k := by
  rw [val_main_v23_apply, val_main_v22_apply, val_main_v20_apply, val_main_v18_apply,
    val_main_v17_apply, val_main_cst_4_apply, val_main_v19_apply, val_main_v11_apply,
    val_main_v21_apply, val_main_v14_apply]
  have e1 : idx_main_v11 (idx_main_v19 (ix2 b k)) = ix1 b :=
    funext fun a => Fin.ext (by match a with | ⟨0, _⟩ => rfl)
  have e2 : idx_main_v14 (idx_main_v21 (ix2 b k)) = ix1 k :=
    funext fun a => Fin.ext (by match a with | ⟨0, _⟩ => rfl)
  rw [e1, e2, v10_at, v13_at, v16_at, v1_at]
  rfl

/-- The last stage: the sum of the weighted squared distances over every sample and cluster, divided
    by the count, is the direct form of the loss. -/
theorem ref_eq :
    val_main_v25 (F := Ideal) x0 x1
      = fun _ => Cert.Spec.directLoss (fun b f => x0 (ix2 b f)) (Cert.Spec.pw (fun b k => x1 (ix2 b k))) := by
  funext i
  rw [val_main_v25_apply, val_main_v24_apply, val_main_cst_5_apply, val_main_cst_6_apply,
    Ideal.ofBits_def, Ideal.ofBits_zero_f32, zero_add, sum_idx2]
  unfold Cert.Spec.directLoss
  have h : ∀ (b : Fin 100000) (k : Fin 32), val_main_v23 (F := Ideal) x0 x1 (ix2 b k)
      = ((Cert.Spec.sqNorm (X x0) b
            - Cert.Spec.two * (∑ f : Fin 128, X x0 b f * Cert.Spec.centroid (X x0) (Wm x1) k f))
          + Cert.Spec.cSq (X x0) (Wm x1) k) * Wm x1 b k := v23_at x0 x1
  simp only [h]
  rfl

end Cert.RefForm

end
-- ==== Proof.LibReals.lean ====
/-
  Extended reals that are real numbers, and the operations that keep them so.

  At the exact (ideal) reading a float is an extended real. When a kernel's inputs are finite, every value it forms
  from them by sums, differences, products, maxima, Euclidean norms, quotients by positive reals and exponentials
  is again a real number; a value proof that needs a law of the reals (distributivity, cancelling, (√s)² = s) first
  shows its operands real with these closure facts, then takes real witnesses (`choose`) and computes in ℝ.

    IsR x : x is a real number;   IsP x : x is a positive real number.
    isR_add / isR_sub / isR_mul / isR_sum / isR_max     closure
    isP_max     the larger of a real and a positive real is a positive real (a norm floored at ε)
    isR_norm    √(Σ uᵢ²) of reals is a real;  sumsq_coe, sqrt_coe_of_nonneg, coe_sum, coe_max push the coercion
    div_coe_coe, isR_div       a quotient by a positive real
    isP_exp, isP_sum           exponentials are positive reals, and so is a nonempty sum of positive reals
    isR_fold_max               the maximum of a nonempty finite family of reals, folded from −∞, is a real
    isR_softmax                exp (z k − M) / Σ_j exp (z j − M) of real scores is a real
    mul_recip                  v · (1 / g) = v / g for a positive real g and EVERY extended real v
-/
import Idealize.ShloMosaic.PureOps.Ideal

noncomputable section

namespace Cert.LibReals

open Idealize.ShloMosaic

/-- x is a real number. -/
def IsR (x : EReal) : Prop := ∃ r : ℝ, x = (r : EReal)
/-- x is a positive real number. -/
def IsP (x : EReal) : Prop := ∃ r : ℝ, 0 < r ∧ x = (r : EReal)

theorem IsP.isR {x : EReal} (h : IsP x) : IsR x := let ⟨r, _, e⟩ := h; ⟨r, e⟩

theorem isR_zero : IsR 0 := ⟨0, rfl⟩
theorem isR_coe (r : ℝ) : IsR (r : EReal) := ⟨r, rfl⟩

theorem isR_add {x y : EReal} (hx : IsR x) (hy : IsR y) : IsR (x + y) := by
  obtain ⟨a, rfl⟩ := hx; obtain ⟨b, rfl⟩ := hy; exact ⟨a + b, (EReal.coe_add a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_mul {x y : EReal} (hx : IsR x) (hy : IsR y) : IsR (x * y) := by
  obtain ⟨a, rfl⟩ := hx; obtain ⟨b, rfl⟩ := hy; exact ⟨a * b, (EReal.coe_mul a b).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} [Fintype ι] (f : ι → EReal) (h : ∀ i, IsR (f i)) : IsR (∑ i, f i) := by
  choose g hg using h
  exact ⟨∑ i, g i, (Finset.sum_congr rfl fun i _ => hg i).trans (coe_sum _ _).symm⟩

theorem isP_sum {ι : Type} [Fintype ι] [Nonempty ι] (f : ι → EReal) (h : ∀ i, IsP (f i)) : IsP (∑ i, f i) := by
  choose g hg0 hg using h
  exact ⟨∑ i, g i, Finset.sum_pos (fun i _ => hg0 i) Finset.univ_nonempty,
    (Finset.sum_congr rfl fun i _ => hg i).trans (coe_sum _ _).symm⟩

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem isR_max {x y : EReal} (hx : IsR x) (hy : IsR y) : IsR (max x y) := by
  obtain ⟨a, rfl⟩ := hx; obtain ⟨b, rfl⟩ := hy; exact ⟨max a b, (coe_max a b).symm⟩

/-- The larger of a real and a positive real is a positive real. -/
theorem isP_max {x ε : EReal} (hx : IsR x) (hε : IsP ε) : IsP (max x ε) := by
  obtain ⟨a, rfl⟩ := hx; obtain ⟨e, he, rfl⟩ := hε
  exact ⟨max a e, lt_max_of_lt_right he, (coe_max a e).symm⟩

theorem sqrt_coe_of_nonneg {r : ℝ} (h : 0 ≤ r) : Ideal.sqrt (r : EReal) = (Real.sqrt r : EReal) := by
  rw [Ideal.sqrt_coe, if_neg (not_lt.2 h)]

/-- A sum of squares of reals is the coercion of the real sum of squares. -/
theorem sumsq_coe {ι : Type} [Fintype ι] (g : ι → ℝ) :
    (∑ i, (g i : EReal) * (g i : EReal)) = ((∑ i, g i * g i : ℝ) : EReal) := by
  rw [coe_sum]; exact Finset.sum_congr rfl fun i _ => (EReal.coe_mul _ _).symm

/-- The Euclidean norm of a family of reals is a real. -/
theorem isR_norm {ι : Type} [Fintype ι] (u : ι → EReal) (h : ∀ i, IsR (u i)) : IsR (Ideal.sqrt (∑ i, u i * u i)) := by
  choose g hg using h
  refine ⟨Real.sqrt (∑ i, g i * g i), ?_⟩
  rw [show (∑ i, u i * u i) = ((∑ i, g i * g i : ℝ) : EReal) from by
    rw [← sumsq_coe]; exact Finset.sum_congr rfl fun i _ => by rw [hg i]]
  exact sqrt_coe_of_nonneg (Finset.sum_nonneg fun i _ => mul_self_nonneg _)

/-- A quotient of reals by a nonzero real. -/
theorem div_coe_coe (x : ℝ) {y : ℝ} (hy : y ≠ 0) : Ideal.div (x : EReal) (y : EReal) = ((x / y : ℝ) : EReal) := by
  rw [Ideal.div_coe hy, ← EReal.coe_mul, mul_one_div]

theorem isR_div {x y : EReal} (hx : IsR x) (hy : IsP y) : IsR (Ideal.div x y) := by
  obtain ⟨a, rfl⟩ := hx; obtain ⟨b, hb, rfl⟩ := hy; exact ⟨a / b, div_coe_coe a hb.ne'⟩

theorem isP_exp {x : EReal} (hx : IsR x) : IsP (Ideal.exp x) := by
  obtain ⟨a, rfl⟩ := hx; exact ⟨Real.exp a, Real.exp_pos a, rfl⟩

/-- The maximum of a nonempty finite family of reals, folded from −∞, is a real. -/
theorem isR_fold_max {ι : Type} [Fintype ι] [Nonempty ι] (z : ι → EReal) (hz : ∀ i, IsR (z i)) :
    IsR (Finset.univ.fold max ⊥ z) := by
  have e : Finset.univ.fold max ⊥ z = Finset.univ.sup z := rfl
  obtain ⟨i, _, hi⟩ := Finset.exists_mem_eq_sup Finset.univ Finset.univ_nonempty z
  rw [e, hi]; exact hz i

/-- The softmax weight of a real score among real scores is a real: exp (z k − M) / Σ_j exp (z j − M), M their maximum. -/
theorem isR_softmax {ι : Type} [Fintype ι] [Nonempty ι] (z : ι → EReal) (hz : ∀ i, IsR (z i)) (k : ι) :
    IsR (Ideal.div (Ideal.exp (z k - max ⊥ (Finset.univ.fold max ⊥ z)))
      (∑ j, Ideal.exp (z j - max ⊥ (Finset.univ.fold max ⊥ z)))) := by
  have hM : IsR (max ⊥ (Finset.univ.fold max ⊥ z)) := by
    rw [max_eq_right bot_le]; exact isR_fold_max z hz
  exact isR_div (isP_exp (isR_sub (hz k) hM)).isR (isP_sum _ fun j => isP_exp (isR_sub (hz j) hM))

/-- Scaling by the reciprocal of a positive real is dividing by it, on every extended real. -/
theorem mul_recip {g : EReal} (hg : IsP g) (v : EReal) : v * Ideal.div 1 g = Ideal.div v g := by
  obtain ⟨a, ha, rfl⟩ := hg
  rw [Ideal.div_coe ha.ne', Ideal.div_coe ha.ne', one_mul]

end Cert.LibReals

end
-- ==== Proof.Consts.lean ====
/-
  The literal words of the loss, read as extended reals.

  An f32 word with sign s, biased exponent e (neither 0 nor 255) and fraction m denotes the real
  (−1)^s · (2^23 + m) · 2^(e − 127 − 23).  The words of 2 and −2 have e = 128, m = 0; the regulariser's word has
  s = 0, e = 100, m = 2870391, the positive dyadic 11258999 · 2^(−50) (only its positivity is used).
-/
import proofs.«172377_j24189255811658_2_alg».proof.Proof.Spec
import proofs.«172377_j24189255811658_2_alg».proof.Proof.LibReals

noncomputable section

namespace Cert.Consts

open Idealize.ShloMosaic Cert.LibReals

/-- The word 0x40000000 denotes 2. -/
theorem two_eq : Cert.Spec.two = ((2 : ℝ) : EReal) := by
  simp [Cert.Spec.two, Ideal.ofBits, Ideal.ieee, -EReal.coe_mul]; norm_num

/-- The word 0xC0000000 denotes −2. -/
theorem negTwo_eq : Cert.Spec.negTwo = ((-2 : ℝ) : EReal) := by
  simp [Cert.Spec.negTwo, Ideal.ofBits, Ideal.ieee, -EReal.coe_mul]; norm_num

/-- The regulariser's word denotes a positive real. -/
theorem eps_pos : IsP Cert.Spec.eps := by
  refine ⟨(11258999 : ℝ) * (2 : ℝ) ^ (-50 : Int), by positivity, ?_⟩
  simp [Cert.Spec.eps, Ideal.ofBits, Ideal.ieee, -EReal.coe_mul]

end Cert.Consts

end
-- ==== Proof.RealIdentity.lean ====
/-
  The identity of the reals behind the two forms of the weighted clustering loss.

  For samples x b (features f), arbitrary weights wm b k, ANY family of points c k (the identity does not
  use that they are centroids), and any numbers x2 b, c2 k standing for the squared norms:

     ∑ b, ∑ k, ((x2 b − 2·∑ f, x b f · c k f) + c2 k) · wm b k
       =  ∑ k, ∑ b, wm b k · x2 b  +  (−2)·∑ k, ∑ f, c k f · (∑ b, wm b k · x b f)  +  ∑ k, c2 k · ∑ b, wm b k.

  Proof: exchange the two outer sums on the left, and compare the summands for a fixed cluster k. The middle term
  ∑ f, c k f · ∑ b, wm b k · x b f  is  ∑ b, wm b k · ∑ f, x b f · c k f  after distributing and exchanging the sums
  over f and b; then both sides are sums over b of summands equal by the ring laws.
-/
import proofs.«172377_j24189255811658_2_alg».proof.Proof.LibReals

namespace Cert.RealIdentity

/-- The inner product with a fixed point, weighted and summed over the samples, is the inner product of the
    point with the weighted feature sums. -/
theorem cross_term {ι φ : Type} [Fintype ι] [Fintype φ] (x : ι → φ → ℝ) (v : ι → ℝ) (c : φ → ℝ) :
    ∑ f, c f * ∑ b, v b * x b f = ∑ b, v b * ∑ f, x b f * c f := by
  simp_rw [Finset.mul_sum]
  rw [Finset.sum_comm]
  exact Finset.sum_congr rfl fun b _ => Finset.sum_congr rfl fun f _ => by ring

/-- The direct form of the loss's numerator equals the collapsed form, over the reals. -/
theorem direct_eq_collapsed {ι κ φ : Type} [Fintype ι] [Fintype κ] [Fintype φ]
    (x : ι → φ → ℝ) (wm : ι → κ → ℝ) (c : κ → φ → ℝ) (x2 : ι → ℝ) (c2 : κ → ℝ) :
    ∑ b, ∑ k, ((x2 b - 2 * ∑ f, x b f * c k f) + c2 k) * wm b k
      = (∑ k, ∑ b, wm b k * x2 b) + (-2) * (∑ k, ∑ f, c k f * ∑ b, wm b k * x b f)
        + ∑ k, c2 k * ∑ b, wm b k := by
  rw [Finset.sum_comm, Finset.mul_sum, ← Finset.sum_add_distrib, ← Finset.sum_add_distrib]
  refine Finset.sum_congr rfl fun k _ => ?_
  rw [cross_term x (fun b => wm b k) (c k), Finset.mul_sum, Finset.mul_sum, ← Finset.sum_add_distrib,
    ← Finset.sum_add_distrib]
  exact Finset.sum_congr rfl fun b _ => by ring

end Cert.RealIdentity
-- ==== Proof.Algebra.lean ====
/-
  The direct and the collapsed form of the weighted clustering loss agree on real entries.

  Let X be the samples and W the raw weights, all entries real. The membership weights are the squares of the
  raw weights: as a product (W b k · W b k) on one side and as the power (W b k)^2 on the other; on a real number
  these are the same real, a nonnegative one. Hence every cluster mass D k = ∑ b, wm b k is a nonnegative real,
  D k + ε is a positive real (ε > 0), and the centroid C k f = N k f / (D k + ε) is the quotient of two reals.
  Every term of the two forms is therefore the coercion of the corresponding real expression, the coercion
  commutes with the finite sums, sums, differences and products, and the two real expressions are equal by the
  distributive law and an exchange of finite sums. Both forms divide by the same count, which is never evaluated.
-/
import proofs.«172377_j24189255811658_2_alg».proof.Proof.Consts
import proofs.«172377_j24189255811658_2_alg».proof.Proof.RealIdentity

noncomputable section

namespace Cert.Algebra

open Idealize.ShloMosaic Cert.LibReals

/-- The square of a real as the power with exponent (the word of) 2 is its product with itself. -/
theorem pow_two_coe (w : ℝ) : Ideal.pow (w : EReal) Spec.two = ((w * w : ℝ) : EReal) := by
  rw [Cert.Consts.two_eq, Ideal.pow_coe_coe]
  congr 1
  show w ^ (2 : ℝ) = w * w
  rw [Real.rpow_two, pow_two]

/-- On real raw weights the two ways of squaring them give the same membership weights. -/
theorem pw_eq_sq (W : Fin 100000 → Fin 32 → EReal) (hW : ∀ b k, IsR (W b k)) : Spec.pw W = Spec.sq W := by
  funext b k
  obtain ⟨w, hw⟩ := hW b k
  show Ideal.pow (W b k) Spec.two = W b k * W b k
  rw [hw, pow_two_coe, EReal.coe_mul]

/-- The real centroid: the weighted feature sum over the regularised mass. -/
def cen (x : Fin 100000 → Fin 128 → ℝ) (wm : Fin 100000 → Fin 32 → ℝ) (e : ℝ) (k : Fin 32) (f : Fin 128) : ℝ :=
  (∑ b, wm b k * x b f) / ((∑ b, wm b k) + e)

section Coe

variable {X : Fin 100000 → Fin 128 → EReal} {Wm : Fin 100000 → Fin 32 → EReal}
  {x : Fin 100000 → Fin 128 → ℝ} {wm : Fin 100000 → Fin 32 → ℝ} {e : ℝ}

/-- N k f is the coercion of the real weighted feature sum. -/
theorem num_coe (hX : ∀ b f, X b f = (x b f : EReal)) (hW : ∀ b k, Wm b k = (wm b k : EReal))
    (k : Fin 32) (f : Fin 128) : Spec.num X Wm k f = ((∑ b, wm b k * x b f : ℝ) : EReal) := by
  rw [coe_sum]
  exact Finset.sum_congr rfl fun b _ => by rw [hW, hX, EReal.coe_mul]

/-- D k is the coercion of the real mass. -/
theorem mass_coe (hW : ∀ b k, Wm b k = (wm b k : EReal)) (k : Fin 32) :
    Spec.mass Wm k = ((∑ b, wm b k : ℝ) : EReal) := by
  rw [coe_sum]
  exact Finset.sum_congr rfl fun b _ => hW b k

/-- C k f is the coercion of the real centroid: the regularised mass is a positive real. -/
theorem centroid_coe (hX : ∀ b f, X b f = (x b f : EReal)) (hW : ∀ b k, Wm b k = (wm b k : EReal))
    (h0 : ∀ b k, 0 ≤ wm b k) (he : 0 < e) (heps : Spec.eps = (e : EReal)) (k : Fin 32) (f : Fin 128) :
    Spec.centroid X Wm k f = (cen x wm e k f : EReal) := by
  have hpos : (∑ b, wm b k) + e ≠ 0 :=
    ne_of_gt (add_pos_of_nonneg_of_pos (Finset.sum_nonneg fun b _ => h0 b k) he)
  unfold Spec.centroid cen
  rw [num_coe hX hW, mass_coe hW, heps, ← EReal.coe_add, div_coe_coe _ hpos]

/-- ‖X b‖² is the coercion of the real squared norm. -/
theorem sqNorm_coe (hX : ∀ b f, X b f = (x b f : EReal)) (b : Fin 100000) :
    Spec.sqNorm X b = ((∑ f, x b f * x b f : ℝ) : EReal) := by
  rw [coe_sum]
  exact Finset.sum_congr rfl fun f _ => by rw [hX, EReal.coe_mul]

/-- ‖C k‖² is the coercion of the real squared norm of the real centroid. -/
theorem cSq_coe (hX : ∀ b f, X b f = (x b f : EReal)) (hW : ∀ b k, Wm b k = (wm b k : EReal))
    (h0 : ∀ b k, 0 ≤ wm b k) (he : 0 < e) (heps : Spec.eps = (e : EReal)) (k : Fin 32) :
    Spec.cSq X Wm k = ((∑ f, cen x wm e k f * cen x wm e k f : ℝ) : EReal) := by
  rw [coe_sum]
  exact Finset.sum_congr rfl fun f _ => by rw [centroid_coe hX hW h0 he heps, EReal.coe_mul]

/-- S k is the coercion of the real weighted sum of squared norms. -/
theorem wNorm_coe (hX : ∀ b f, X b f = (x b f : EReal)) (hW : ∀ b k, Wm b k = (wm b k : EReal)) (k : Fin 32) :
    Spec.wNorm X Wm k = ((∑ b, wm b k * ∑ f, x b f * x b f : ℝ) : EReal) := by
  rw [coe_sum]
  exact Finset.sum_congr rfl fun b _ => by rw [hW, sqNorm_coe hX, EReal.coe_mul]

/-- ⟨X b, C k⟩ is the coercion of the real inner product. -/
theorem dot_coe (hX : ∀ b f, X b f = (x b f : EReal)) (hW : ∀ b k, Wm b k = (wm b k : EReal))
    (h0 : ∀ b k, 0 ≤ wm b k) (he : 0 < e) (heps : Spec.eps = (e : EReal)) (b : Fin 100000) (k : Fin 32) :
    (∑ f, X b f * Spec.centroid X Wm k f) = ((∑ f, x b f * cen x wm e k f : ℝ) : EReal) := by
  rw [coe_sum]
  exact Finset.sum_congr rfl fun f _ => by rw [hX, centroid_coe hX hW h0 he heps, EReal.coe_mul]

/-- The numerator of the direct form is the coercion of its real counterpart. -/
theorem directNum_coe (hX : ∀ b f, X b f = (x b f : EReal)) (hW : ∀ b k, Wm b k = (wm b k : EReal))
    (h0 : ∀ b k, 0 ≤ wm b k) (he : 0 < e) (heps : Spec.eps = (e : EReal)) :
    (∑ b, ∑ k, ((Spec.sqNorm X b - Spec.two * (∑ f, X b f * Spec.centroid X Wm k f)) + Spec.cSq X Wm k) * Wm b k)
      = ((∑ b, ∑ k, (((∑ f, x b f * x b f) - 2 * ∑ f, x b f * cen x wm e k f)
            + ∑ f, cen x wm e k f * cen x wm e k f) * wm b k : ℝ) : EReal) := by
  rw [coe_sum]
  refine Finset.sum_congr rfl fun b _ => ?_
  rw [coe_sum]
  refine Finset.sum_congr rfl fun k _ => ?_
  rw [sqNorm_coe hX, dot_coe hX hW h0 he heps, cSq_coe hX hW h0 he heps, Cert.Consts.two_eq, hW,
    EReal.coe_mul, EReal.coe_add, EReal.coe_sub, EReal.coe_mul]

/-- The numerator of the collapsed form is the coercion of its real counterpart. -/
theorem closedNum_coe (hX : ∀ b f, X b f = (x b f : EReal)) (hW : ∀ b k, Wm b k = (wm b k : EReal))
    (h0 : ∀ b k, 0 ≤ wm b k) (he : 0 < e) (heps : Spec.eps = (e : EReal)) :
    (∑ k, Spec.wNorm X Wm k) + Spec.negTwo * (∑ k, ∑ f, Spec.centroid X Wm k f * Spec.num X Wm k f)
        + (∑ k, Spec.cSq X Wm k * Spec.mass Wm k)
      = (((∑ k, ∑ b, wm b k * ∑ f, x b f * x b f)
          + (-2) * (∑ k, ∑ f, cen x wm e k f * ∑ b, wm b k * x b f)
          + ∑ k, (∑ f, cen x wm e k f * cen x wm e k f) * ∑ b, wm b k : ℝ) : EReal) := by
  have h1 : (∑ k, Spec.wNorm X Wm k) = ((∑ k, ∑ b, wm b k * ∑ f, x b f * x b f : ℝ) : EReal) := by
    rw [coe_sum]
    exact Finset.sum_congr rfl fun k _ => wNorm_coe hX hW k
  have h2 : (∑ k, ∑ f, Spec.centroid X Wm k f * Spec.num X Wm k f)
      = ((∑ k, ∑ f, cen x wm e k f * ∑ b, wm b k * x b f : ℝ) : EReal) := by
    rw [coe_sum]
    refine Finset.sum_congr rfl fun k _ => ?_
    rw [coe_sum]
    exact Finset.sum_congr rfl fun f _ => by
      rw [centroid_coe hX hW h0 he heps, num_coe hX hW, EReal.coe_mul]
  have h3 : (∑ k, Spec.cSq X Wm k * Spec.mass Wm k)
      = ((∑ k, (∑ f, cen x wm e k f * cen x wm e k f) * ∑ b, wm b k : ℝ) : EReal) := by
    rw [coe_sum]
    exact Finset.sum_congr rfl fun k _ => by
      rw [cSq_coe hX hW h0 he heps, mass_coe hW, EReal.coe_mul]
  rw [h1, h2, h3, Cert.Consts.negTwo_eq, EReal.coe_add, EReal.coe_add, EReal.coe_mul]

end Coe

/-- The direct form on the weights squared as a power equals the collapsed form on the weights squared as a
    product, for real samples and real raw weights. -/
theorem loss_eq (X : Fin 100000 → Fin 128 → EReal) (W : Fin 100000 → Fin 32 → EReal)
    (hX : ∀ b f, Cert.LibReals.IsR (X b f)) (hW : ∀ b k, Cert.LibReals.IsR (W b k)) :
    Cert.Spec.directLoss X (Cert.Spec.pw W) = Cert.Spec.closedLoss X (Cert.Spec.sq W) := by
  rw [pw_eq_sq W hW]
  choose x hx using hX
  choose w hw using hW
  obtain ⟨e, he, heps⟩ := Cert.Consts.eps_pos
  have hsq : ∀ b k, Spec.sq W b k = ((w b k * w b k : ℝ) : EReal) := fun b k => by
    show W b k * W b k = _
    rw [hw, EReal.coe_mul]
  have h0 : ∀ b k, 0 ≤ w b k * w b k := fun b k => mul_self_nonneg _
  unfold Spec.directLoss Spec.closedLoss
  refine congrArg (fun t => Ideal.div t Spec.cnt) ?_
  rw [directNum_coe hx hsq h0 he heps, closedNum_coe hx hsq h0 he heps]
  exact congrArg _ (Cert.RealIdentity.direct_eq_collapsed x (fun b k => w b k * w b k) (cen x _ e)
    (fun b => ∑ f, x b f * x b f) (fun k => ∑ f, cen x (fun b k => w b k * w b k) e k f * cen x (fun b k => w b k * w b k) e k f))

end Cert.Algebra

end
-- ==== Proof.LibFiniteEntry.lean ====
/-
  GENERAL LEMMAS. From "the absolute value is below +∞" to "is a real", one entry at a time.

  A finiteness precondition compares, entry by entry, the absolute value of a float array with the splat of the
  word of +∞ and asks every answer to be 1. At the exact values the absolute value is `max x (-x)`, the word
  `0x7F800000` is `⊤`, and an ordered "less than" answers 1 only when it holds; an extended real with
  `max x (-x) < ⊤` is neither infinity, so it is a real. Generic in the array's shape.
-/
import proofs.«172377_j24189255811658_2_alg».proof.Proof.LibReals
import Idealize.ShloMosaic.Lib.ValueIdx
import Idealize.ShloMosaic.Lib.Pipeline.Value
import Idealize.ShloMosaic.PureOps.Ideal.Laws

noncomputable section

namespace Cert.LibFiniteEntry

open Idealize.ShloMosaic Cert.LibReals

/-- GENERAL LEMMA. The f32 word of +∞ is `⊤`. -/
theorem inf_word : Ideal.ofBits .f32 0x7F800000#32 = ⊤ := by simp [Ideal.ofBits, Ideal.ieee]

/-- GENERAL LEMMA. An extended real whose absolute value is below +∞ is a real. -/
theorem isR_of_abs_lt_top {x : EReal} (h : max x (-x) < ⊤) : IsR x := by
  induction x using EReal.rec with
  | bot => simp at h
  | top => simp at h
  | coe r => exact ⟨r, rfl⟩

/-- GENERAL LEMMA. An ordered "less than" that answers 1 holds. -/
theorem lt_of_cmp_olt {a b : EReal} (h : Ideal.cmp .olt a b = 1#1) : a < b := by
  by_contra hn
  have h0 : Ideal.cmp .olt a b = 0#1 := by
    show BitVec.ofBool (decide (a < b)) = 0#1
    rw [decide_eq_false hn]; rfl
  rw [h0] at h
  exact absurd h (by decide)

/-- GENERAL LEMMA. One entry of an array of any shape `s`: when the comparison of its absolute value (the host's
    `abs`) with the scalar word of +∞ broadcast to `s` answers 1 there, the entry is a real. -/
theorem entry_isR {s : Shape} (x : FVec Ideal s .f32)
    (hb : (⟨0, ![]⟩ : Shape).BroadcastsInDim s (![] : Fin 0 → Fin s.rank)) (i : s.Idx)
    (h : cmpf .olt (Host.absf x)
      (broadcastInDim s ![] hb (constant (F := Ideal) (⟨0, ![]⟩ : Shape) .f32 0x7F800000#32)) i = 1#1) :
    IsR (x i) := by
  have hb' : broadcastInDim s ![] hb (constant (F := Ideal) (⟨0, ![]⟩ : Shape) .f32 0x7F800000#32) i = (⊤ : EReal) :=
    (broadcastInDim_apply _ hb _ i (fun a => a.elim0) (fun a => a.elim0)).trans inf_word
  have h' : Ideal.cmp .olt (max (x i) (-(x i)))
      (broadcastInDim s ![] hb (constant (F := Ideal) (⟨0, ![]⟩ : Shape) .f32 0x7F800000#32) i) = 1#1 := h
  rw [hb'] at h'
  exact isR_of_abs_lt_top (lt_of_cmp_olt h')

end Cert.LibFiniteEntry

end
-- ==== Proof.Finite.lean ====
/-
  From the finiteness precondition to "every entry is a real".

  The precondition is the conjunction of two tests, one per input array: every entry's absolute value is below +∞.
  Each test is a reduction by "and", from 1, of the entrywise comparisons, so when the conjunction answers 1 each
  reduction answers 1 and hence each comparison answers 1; an extended real whose absolute value is below +∞ is
  neither infinity, that is, a real number.
-/
import proofs.«172377_j24189255811658_2_alg».proof.Pre_finite_inputs
import proofs.«172377_j24189255811658_2_alg».proof.Proof.LibFiniteEntry
import Idealize.ShloMosaic.Lib.ReduceAll

noncomputable section

namespace Cert.Finite

open Idealize.ShloMosaic Cert.LibReals Cert.Pre_finite_inputs

/-- The scalar shape has a single index. -/
instance : Subsingleton S_.Idx := ⟨fun a b => funext fun d => d.elim0⟩

variable [Cert.Pre_finite_inputs.Facts]

/-- Under the finiteness precondition every entry of both input arrays is a real number. -/
theorem entries_real (x0 : FVec Ideal S100000x128 .f32) (x1 : FVec Ideal S100000x32 .f32)
    (h : Cert.Pre_finite_inputs.fn (F := Ideal) x0 x1 = fun _ => 1#1) :
    (∀ (b : Fin 100000) (f : Fin 128), Cert.LibReals.IsR (x0 (ValueIdx.ix2 b f))) ∧
      (∀ (b : Fin 100000) (k : Fin 32), Cert.LibReals.IsR (x1 (ValueIdx.ix2 b k))) := by
  have h' := congrFun h ValueIdx.ix0
  dsimp only [Cert.Pre_finite_inputs.fn] at h'
  obtain ⟨hA, hB⟩ := IntOp.andi_eq_one.1 h'
  exact ⟨fun b f => Cert.LibFiniteEntry.entry_isR x0 _ _ (Host.reduce_andi_all _ _ _ _ _ hA (ValueIdx.ix2 b f)),
    fun b k => Cert.LibFiniteEntry.entry_isR x1 _ _ (Host.reduce_andi_all _ _ _ _ _ hB (ValueIdx.ix2 b k))⟩

end Cert.Finite

end
-- ==== Proof.KTailDef.lean ====
/-
  The host operations that follow the kernel's region, as stages: each stage is one operation's result as a
  function of the three arrays the region leaves — the per-core partial sums
    n2 [2, 32, 128]  (weighted feature sums),   d2 [2, 1, 32]  (cluster masses),   s2 [2, 1, 32]  (weighted squared norms).
  The stages add the two cores' partials (v1, v2, v3), form the centroids v8 = v1 / (v2ᵀ + ε), the centroids'
  squared norms v10, and combine  term1 = Σ v3,  term2 = (−2)·Σ v8·v1,  term3 = Σ v10·v2  into (term1 + term2 + term3) / count.
-/
import proofs.«172377_j24189255811658_2_alg».proof.KernelIdeal
import Idealize.ShloMosaic.PureOps.Ideal

noncomputable section

namespace Cert.KTail

open Idealize.ShloMosaic Cert.KernelIdeal

variable [Cert.KernelIdeal.Facts]
open Cert.KernelIdeal.Facts₀ Cert.KernelIdeal.Facts

/-- The zero the sums start from. -/
def zero : FVec Ideal S_ .f32 := constant (F := Ideal) S_ .f32 0x00000000#32
/-- v1 [32,128]: the two cores' weighted feature sums, added. -/
def v1 (n2 : FVec Ideal S2x32x128 .f32) : FVec Ideal S32x128 .f32 :=
  Host.reduceAdd n2 zero reducesTo_S2x32x128_S32x128_d0 h_S_
/-- v2 [1,32]: the two cores' cluster masses, added. -/
def v2 (d2 : FVec Ideal S2x1x32 .f32) : FVec Ideal S1x32 .f32 :=
  Host.reduceAdd d2 zero reducesTo_S2x1x32_S1x32_d0 h_S_
/-- v3 [1,32]: the two cores' weighted squared norms, added. -/
def v3 (s2 : FVec Ideal S2x1x32 .f32) : FVec Ideal S1x32 .f32 :=
  Host.reduceAdd s2 zero reducesTo_S2x1x32_S1x32_d0 h_S_
/-- v4 [32,1]: the masses as a column. -/
def v4 (d2 : FVec Ideal S2x1x32 .f32) : FVec Ideal S32x1 .f32 :=
  shapeCast S32x1 (v2 d2) shapeCasts_S1x32_S32x1
/-- v5 [32,1]: ε in every entry. -/
def v5 : FVec Ideal S32x1 .f32 :=
  broadcastInDim S32x1 ![] bcast_S_S32x1 (constant (F := Ideal) S_ .f32 0x322BCC77#32)
/-- v6 [32,1]: the regularised masses. -/
def v6 (d2 : FVec Ideal S2x1x32 .f32) : FVec Ideal S32x1 .f32 := addf (v4 d2) v5
/-- v7 [32,128]: the regularised masses along every feature. -/
def v7 (d2 : FVec Ideal S2x1x32 .f32) : FVec Ideal S32x128 .f32 :=
  broadcastInDim S32x128 ![0, 1] bcast_S32x1_S32x128_0_1 (v6 d2)
/-- v8 [32,128]: the centroids. -/
def v8 (n2 : FVec Ideal S2x32x128 .f32) (d2 : FVec Ideal S2x1x32 .f32) : FVec Ideal S32x128 .f32 :=
  Host.divf (v1 n2) (v7 d2)
/-- v9 [32,128]: the centroids' entries squared. -/
def v9 (n2 : FVec Ideal S2x32x128 .f32) (d2 : FVec Ideal S2x1x32 .f32) : FVec Ideal S32x128 .f32 :=
  mulf (v8 n2 d2) (v8 n2 d2)
/-- v10 [32]: the centroids' squared norms. -/
def v10 (n2 : FVec Ideal S2x32x128 .f32) (d2 : FVec Ideal S2x1x32 .f32) : FVec Ideal S32 .f32 :=
  Host.reduceAdd (v9 n2 d2) zero reducesTo_S32x128_S32_d1 h_S_
/-- v11 [32]: the masses as a vector. -/
def v11 (d2 : FVec Ideal S2x1x32 .f32) : FVec Ideal S32 .f32 :=
  shapeCast S32 (v2 d2) shapeCasts_S1x32_S32
/-- v12 []: term1, the sum of the weighted squared norms. -/
def v12 (s2 : FVec Ideal S2x1x32 .f32) : FVec Ideal S_ .f32 :=
  Host.reduceAdd (v3 s2) zero reducesTo_S1x32_S_d0_1 h_S_
/-- v13 [32,128]: centroid times weighted feature sum. -/
def v13 (n2 : FVec Ideal S2x32x128 .f32) (d2 : FVec Ideal S2x1x32 .f32) : FVec Ideal S32x128 .f32 :=
  mulf (v8 n2 d2) (v1 n2)
/-- v14 []: their sum over clusters and features. -/
def v14 (n2 : FVec Ideal S2x32x128 .f32) (d2 : FVec Ideal S2x1x32 .f32) : FVec Ideal S_ .f32 :=
  Host.reduceAdd (v13 n2 d2) zero reducesTo_S32x128_S_d0_1 h_S_
/-- v15 []: term2, minus two times that sum. -/
def v15 (n2 : FVec Ideal S2x32x128 .f32) (d2 : FVec Ideal S2x1x32 .f32) : FVec Ideal S_ .f32 :=
  mulf (constant (F := Ideal) S_ .f32 0xC0000000#32) (v14 n2 d2)
/-- v16 [32]: squared norm of a centroid times its mass. -/
def v16 (n2 : FVec Ideal S2x32x128 .f32) (d2 : FVec Ideal S2x1x32 .f32) : FVec Ideal S32 .f32 :=
  mulf (v10 n2 d2) (v11 d2)
/-- v17 []: term3, their sum over the clusters. -/
def v17 (n2 : FVec Ideal S2x32x128 .f32) (d2 : FVec Ideal S2x1x32 .f32) : FVec Ideal S_ .f32 :=
  Host.reduceAdd (v16 n2 d2) zero reducesTo_S32_S_d0 h_S_
/-- v20 []: the loss, (term1 + term2 + term3) over the count. -/
def v20 (n2 : FVec Ideal S2x32x128 .f32) (d2 s2 : FVec Ideal S2x1x32 .f32) : FVec Ideal S_ .f32 :=
  Host.divf (addf (addf (v12 s2) (v15 n2 d2)) (v17 n2 d2)) (constant (F := Ideal) S_ .f32 0x4A435000#32)

end Cert.KTail

end
-- ==== Proof.KRun.lean ====
/-
  The kernel's run, read: the result buffer ends at the host tail's stages applied to the three arrays the region
  leaves (the per-core partial sums), and the two argument arrays end unchanged.

  The generated frame run states every buffer the region does not stage at "the tail's operations applied to the
  memory the region leaves"; here that term is identified with the stages of the tail (one definition per operation),
  the region's three result arrays being what the write-backs left.
-/
import proofs.«172377_j24189255811658_2_alg».proof.Proof.Gen.KernelIdeal.Frame
import proofs.«172377_j24189255811658_2_alg».proof.Proof.KTailDef
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KRun

open Cert.KernelIdeal Cert.KernelIdeal.Gen

variable (m : (ℓ : Loc nD τ sig) → Buf (Elt Ideal) ℓ) (ρ : Dev nD → PrngReg)

/-- The three arrays the region leaves on core `c`: what the write-backs of windows 2, 3, 4 left. -/
abbrev arr2 (c : Dev nD) := (dats m 0 c).arrAt 2 cfg0.N
abbrev arr3 (c : Dev nD) := (dats m 0 c).arrAt 3 cfg0.N
abbrev arr4 (c : Dev nD) := (dats m 0 c).arrAt 4 cfg0.N

/-- The result buffer after the tail: the tail's last stage of the three arrays. -/
theorem tail_v20 (c : Dev nD) :
    Pipeline.afterTail₀ cfgs (dats m) 0 (V0 m) [hostOps1] c main_v20
      = Cert.KTail.v20 (arr2 m c) (arr3 m c) (arr4 m c) := by
  unfold Pipeline.afterTail₀
  simp only [List.flatten_cons, List.flatten_nil, List.append_nil]
  after_results_simp
  have e2 : Pipeline.withArrays (cfgs 0).spec c (V0 m c) (fun w => (dats m 0 c).arrAt w (cfgs 0).N) (Proc.tc.devRef main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.tc.devRef main_v0_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.tc.devRef main_v0_2)
      = (dats m 0 c).arrAt 4 cfg0.N := Pipeline.withArrays_arr spec0 launch0.win.arr_inj c _ _ 4
  rw [e2, e3, e4]
  rfl

/-- Every weakly fair execution terminates with the result at the tail's last stage and the arguments unchanged. -/
theorem run : θ_run defs (onTc (τ := τ) (main (F := Ideal))) ⟨m, fun _ => 0, ρ⟩ (fun r => ∀ c : Dev nD,
      r.2.mem ((c.tc : Thread nD τ).loc main_v20) = Cert.KTail.v20 (arr2 m c) (arr3 m c) (arr4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v20 (by decide)).trans (tail_v20 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KRun
end
-- ==== Proof.LibLeadSum.lean ====
/-
  The host's sum over the leading axis of a rank-3 array, read at an index.

  Summing an [a, b, c] array over its first axis from an initial value gives a [b, c] array whose entry (p, q) is
  the initial value plus the sum over k of the entries (k, p, q) — at the exact values, where the host's sum is
  the plain sum whatever its order.
-/
import Idealize.ShloMosaic.PureOps.Ideal.Laws
import Idealize.ShloMosaic.Lib.ValueIdx

noncomputable section

namespace Cert.LibLeadSum

open Idealize.ShloMosaic Idealize.ShloMosaic.ValueIdx

/-- GENERAL LEMMA. A host float sum over axis 0 of an [a, b, c] array, at (p, q). The second shape fact names the
    index the sum reads; at literal shapes `by decide` gives it. -/
theorem host_sum_lead_apply {a b c : ℕ} (x : FVec Ideal (⟨3, ![a, b, c]⟩ : Shape) .f32) (init : FVec Ideal (⟨0, ![]⟩ : Shape) .f32)
    (h' : (⟨3, ![a, b, c]⟩ : Shape).ReducesTo [0] ⟨2, ![b, c]⟩) (h : (⟨3, ![a, b, c]⟩ : Shape).Reduces [0] ⟨2, ![b, c]⟩)
    (hu : 0 < (⟨0, ![]⟩ : Shape).numel) (p : Fin b) (q : Fin c) :
    Host.reduceAdd x init h' hu (ix2 p q) = init ix0 + ∑ k : Fin a, x (ix3 k p q) := by
  show Ideal.hostReduceAdd h' x (init (Shape.Idx.first hu)) (ix2 p q) = _
  rw [Ideal.hostReduceAdd_single h' h]
  refine congrArg₂ (· + ·) (congrArg init (eq_ix0 _)) (Finset.sum_congr rfl fun k _ => congrArg x (funext fun ax => Fin.ext ?_))
  match ax with
  | ⟨0, _⟩ => rfl
  | ⟨1, _⟩ => rfl
  | ⟨2, _⟩ => rfl

end Cert.LibLeadSum

end
-- ==== Proof.LibColumns.lean ====
/-
  Index facts for arrays whose long axis is the last one. A sum over the index set of an [n] array, or of a [1, n]
  array, is the sum over the n positions; a reduction over axis 0 of an [a, b] array, read at column q, runs over the
  entries (k, q); an [a, b] array summed over axis 0 at the ideal values is, at column q, the sum over k of those
  entries; and the 0-or-1 word of a comparison converts to the same real number whether it is first zero-extended
  to 32 bits and read signed, or read unsigned as it is.
-/
import Idealize.ShloMosaic.Lib.Pipeline.Value
import Idealize.ShloMosaic.Lib.ValueIdx
import Idealize.ShloMosaic.PureOps.Ideal.Laws

noncomputable section

namespace Cert.LibColumns

open Idealize.ShloMosaic Idealize.ShloMosaic.ValueIdx

/-- The index set of an [n] array is its n positions. -/
def idxEquiv1 {n : Nat} : (⟨1, ![n]⟩ : Shape).Idx ≃ Fin n where
  toFun i := i 0
  invFun q := ix1 q
  left_inv i := (eq_ix1 i).symm
  right_inv _ := rfl

/-- A sum over the index set of an [n] array is the sum over the positions. -/
theorem sum_idx1 {M : Type*} [AddCommMonoid M] {n : Nat} (f : (⟨1, ![n]⟩ : Shape).Idx → M) :
    ∑ i, f i = ∑ q : Fin n, f (ix1 q) :=
  (Equiv.sum_comp (idxEquiv1 (n := n)).symm f).symm

/-- A sum over the index set of a [1, n] array is the sum over the positions of its one row. -/
theorem sum_idx_row {M : Type*} [AddCommMonoid M] {n : Nat} (f : (⟨2, ![1, n]⟩ : Shape).Idx → M) :
    ∑ i, f i = ∑ q : Fin n, f (ix2 (0 : Fin 1) q) := by
  rw [sum_idx2, Fin.sum_univ_one]

/-- The index a reduction over axis 0 reads for column `q` and reduced coordinate `k` is `(k, q)`. -/
theorem lift_col {a b : ℕ} (h : (⟨2, ![a, b]⟩ : Shape).Reduces [0] ⟨1, ![b]⟩) (q : Fin b) (k : Fin a) :
    h.lift (ix1 q) k = ix2 k q :=
  funext fun ax => Fin.ext (by match ax with | ⟨0, _⟩ => rfl | ⟨1, _⟩ => rfl)

/-- A float sum over axis 0 of an [a, b] array, at the ideal values and onto the zero accumulator, is at column
    `q` the sum over `k` of the entries `(k, q)`. The accumulator fact is taken in the form a printed program
    carries it (the zero word equal to itself). -/
theorem sum_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (lift_col h q k))

/-- A one-bit word zero-extended to 32 bits and read as a signed integer is the bit read as a natural number. -/
theorem bit_signed_eq_unsigned (b : BitVec 1) : (((b.setWidth 32).toInt : ℝ) : EReal) = ((b.toNat : ℝ) : EReal) := by
  rcases BitVec.eq_zero_or_eq_one b with h | h <;> subst h <;> rfl

end Cert.LibColumns

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.KTail.lean ====
/-
  The host operations that follow the kernel's region, read at an index.

  The region leaves the per-core partial sums  n2 [2, 32, 128],  d2 [2, 1, 32],  s2 [2, 1, 32].  Adding the two
  cores' partials gives
      N k f = ∑ c, n2 (c, k, f)     (the weighted feature sums),
      D k   = ∑ c, d2 (c, 0, k)     (the cluster masses),
      S k   = ∑ c, s2 (c, 0, k)     (the weighted squared norms),
  and the centroids are  Cn k f = N k f / (D k + ε).  Each stage of the host computation is read here at explicit
  coordinates, inside-out, every float operation at its exact value on the extended reals and every sum's zero
  initial value dropped; the last lemma reads the scalar result as
      ( ∑ k, S k  +  (−2) · ∑ k f, Cn k f * N k f  +  ∑ k, (∑ f, Cn k f * Cn k f) * D k ) / count.
-/
import proofs.«172377_j24189255811658_2_alg».proof.Proof.KTailDef
import proofs.«172377_j24189255811658_2_alg».proof.Proof.Spec
import proofs.«172377_j24189255811658_2_alg».proof.Proof.LibLeadSum
import proofs.«172377_j24189255811658_2_alg».proof.Proof.LibColumns
import proofs.«172377_j24189255811658_2_alg».proof.Proof.LibKeepdims
import Idealize.ShloMosaic.Lib.Pipeline.Value
import Idealize.ShloMosaic.Lib.ValueIdx
import Idealize.ShloMosaic.PureOps.Ideal.Laws

noncomputable section

namespace Cert.KTail

open Idealize.ShloMosaic Idealize.ShloMosaic.ValueIdx Cert.KernelIdeal

variable [Cert.KernelIdeal.Facts]
open Cert.KernelIdeal.Facts₀ Cert.KernelIdeal.Facts

/-- N k f: the two cores' weighted feature sums, added. -/
def N (n2 : FVec Ideal S2x32x128 .f32) (k : Fin 32) (f : Fin 128) : EReal := ∑ c : Fin 2, n2 (ValueIdx.ix3 c k f)
/-- D k: the two cores' cluster masses, added. -/
def D (d2 : FVec Ideal S2x1x32 .f32) (k : Fin 32) : EReal := ∑ c : Fin 2, d2 (ValueIdx.ix3 c (0 : Fin 1) k)
/-- S k: the two cores' weighted squared norms, added. -/
def S (s2 : FVec Ideal S2x1x32 .f32) (k : Fin 32) : EReal := ∑ c : Fin 2, s2 (ValueIdx.ix3 c (0 : Fin 1) k)
/-- Cn k f: the centroid of cluster k at feature f, the weighted sum over the regularised mass. -/
def Cn (n2 : FVec Ideal S2x32x128 .f32) (d2 : FVec Ideal S2x1x32 .f32) (k : Fin 32) (f : Fin 128) : EReal :=
  Ideal.div (N n2 k f) (D d2 k + Cert.Spec.eps)

/-- The sums start from the extended real 0. -/
theorem zero_apply (i : S_.Idx) : zero i = 0 := Ideal.ofBits_zero_f32

/-- v1 at (k, f): the initial 0 plus the two cores' entries. -/
theorem v1_apply (n2 : FVec Ideal S2x32x128 .f32) (k : Fin 32) (f : Fin 128) : v1 n2 (ix2 k f) = N n2 k f := by
  unfold v1 N
  rw [Cert.LibLeadSum.host_sum_lead_apply n2 zero reducesTo_S2x32x128_S32x128_d0 (by decide) h_S_ k f, zero_apply, zero_add]

/-- v2 at (0, k). -/
theorem v2_apply (d2 : FVec Ideal S2x1x32 .f32) (k : Fin 32) : v2 d2 (ix2 (0 : Fin 1) k) = D d2 k := by
  unfold v2 D
  rw [Cert.LibLeadSum.host_sum_lead_apply d2 zero reducesTo_S2x1x32_S1x32_d0 (by decide) h_S_ (0 : Fin 1) k, zero_apply, zero_add]

/-- v3 at (0, k). -/
theorem v3_apply (s2 : FVec Ideal S2x1x32 .f32) (k : Fin 32) : v3 s2 (ix2 (0 : Fin 1) k) = S s2 k := by
  unfold v3 S
  rw [Cert.LibLeadSum.host_sum_lead_apply s2 zero reducesTo_S2x1x32_S1x32_d0 (by decide) h_S_ (0 : Fin 1) k, zero_apply, zero_add]

/-- v4 at (k, 0): the row [1, 32] laid out as a column [32, 1] keeps position k. -/
theorem v4_apply (d2 : FVec Ideal S2x1x32 .f32) (k : Fin 32) : v4 d2 (ix2 k (0 : Fin 1)) = D d2 k := by
  unfold v4
  rw [shapeCast_apply (v2 d2) shapeCasts_S1x32_S32x1 (ix2 k (0 : Fin 1)) (ix2 (0 : Fin 1) k) (by
    rw [Shape.rowMajor_val_two, Shape.rowMajor_val_two]
    show 0 * 32 + k.val = k.val * 1 + 0
    omega), v2_apply]

/-- v5 is ε everywhere. -/
theorem v5_apply (i : S32x1.Idx) : v5 i = Cert.Spec.eps :=
  broadcastInDim_apply _ bcast_S_S32x1 (constant (F := Ideal) S_ .f32 0x322BCC77#32) i ix0 (fun a => a.elim0)

/-- v6 at (k, 0): the regularised mass. -/
theorem v6_apply (d2 : FVec Ideal S2x1x32 .f32) (k : Fin 32) : v6 d2 (ix2 k (0 : Fin 1)) = D d2 k + Cert.Spec.eps := by
  show v4 d2 (ix2 k (0 : Fin 1)) + v5 (ix2 k (0 : Fin 1)) = _
  rw [v4_apply, v5_apply]

/-- v7 at (k, f): the column entry (k, 0) along the features. -/
theorem v7_apply (d2 : FVec Ideal S2x1x32 .f32) (k : Fin 32) (f : Fin 128) : v7 d2 (ix2 k f) = D d2 k + Cert.Spec.eps := by
  unfold v7
  rw [broadcastInDim_apply _ bcast_S32x1_S32x128_0_1 (v6 d2) (ix2 k f) (ix2 k (0 : Fin 1)) (fun a => match a with
    | ⟨0, _⟩ => by show k.val = if (32 : Nat) = 1 then 0 else k.val; rw [if_neg (by decide)]
    | ⟨1, _⟩ => by show 0 = if (1 : Nat) = 1 then 0 else f.val; rw [if_pos rfl]), v6_apply]

/-- v8 at (k, f): the centroid. -/
theorem v8_apply (n2 : FVec Ideal S2x32x128 .f32) (d2 : FVec Ideal S2x1x32 .f32) (k : Fin 32) (f : Fin 128) :
    v8 n2 d2 (ix2 k f) = Cn n2 d2 k f := by
  show Ideal.div (v1 n2 (ix2 k f)) (v7 d2 (ix2 k f)) = _
  rw [v1_apply, v7_apply]; rfl

/-- v9 at (k, f): the centroid's entry squared. -/
theorem v9_apply (n2 : FVec Ideal S2x32x128 .f32) (d2 : FVec Ideal S2x1x32 .f32) (k : Fin 32) (f : Fin 128) :
    v9 n2 d2 (ix2 k f) = Cn n2 d2 k f * Cn n2 d2 k f := by
  show v8 n2 d2 (ix2 k f) * v8 n2 d2 (ix2 k f) = _
  rw [v8_apply]

/-- v10 at k: the centroid's squared norm. -/
theorem v10_apply (n2 : FVec Ideal S2x32x128 .f32) (d2 : FVec Ideal S2x1x32 .f32) (k : Fin 32) :
    v10 n2 d2 (ix1 k) = ∑ f : Fin 128, Cn n2 d2 k f * Cn n2 d2 k f := by
  unfold v10
  show Ideal.hostReduceAdd reducesTo_S32x128_S32_d1 (v9 n2 d2) (zero (Shape.Idx.first h_S_)) (ix1 k) = _
  have hred : (⟨2, ![32, 128]⟩ : Shape).Reduces [1] ⟨1, ![32]⟩ := by decide
  rw [Ideal.hostReduceAdd_single reducesTo_S32x128_S32_d1 hred, zero_apply, zero_add]
  exact Finset.sum_congr rfl fun f _ =>
    (congrArg (v9 n2 d2) (Cert.LibKeepdims.lift_row hred k f)).trans (v9_apply n2 d2 k f)

/-- v11 at k: the row [1, 32] laid out as a vector [32] keeps position k. -/
theorem v11_apply (d2 : FVec Ideal S2x1x32 .f32) (k : Fin 32) : v11 d2 (ix1 k) = D d2 k := by
  unfold v11
  rw [shapeCast_apply (v2 d2) shapeCasts_S1x32_S32 (ix1 k) (ix2 (0 : Fin 1) k) (by
    rw [Shape.rowMajor_val_two, Shape.rowMajor_val_one]
    show 0 * 32 + k.val = k.val
    omega), v2_apply]

/-- v12: term1, the sum over the clusters of S. -/
theorem v12_apply (s2 : FVec Ideal S2x1x32 .f32) (i : S_.Idx) : v12 s2 i = ∑ k : Fin 32, S s2 k := by
  unfold v12
  show Ideal.hostReduceAdd reducesTo_S1x32_S_d0_1 (v3 s2) (zero (Shape.Idx.first h_S_)) i = _
  rw [Ideal.hostReduceAdd_total reducesTo_S1x32_S_d0_1 (fun b => b.elim0), zero_apply, zero_add, Cert.LibColumns.sum_idx_row]
  exact Finset.sum_congr rfl fun k _ => v3_apply s2 k

/-- v13 at (k, f): centroid times weighted feature sum. -/
theorem v13_apply (n2 : FVec Ideal S2x32x128 .f32) (d2 : FVec Ideal S2x1x32 .f32) (k : Fin 32) (f : Fin 128) :
    v13 n2 d2 (ix2 k f) = Cn n2 d2 k f * N n2 k f := by
  show v8 n2 d2 (ix2 k f) * v1 n2 (ix2 k f) = _
  rw [v8_apply, v1_apply]

/-- v14: the sum over clusters and features of centroid times weighted feature sum. -/
theorem v14_apply (n2 : FVec Ideal S2x32x128 .f32) (d2 : FVec Ideal S2x1x32 .f32) (i : S_.Idx) :
    v14 n2 d2 i = ∑ k : Fin 32, ∑ f : Fin 128, Cn n2 d2 k f * N n2 k f := by
  unfold v14
  show Ideal.hostReduceAdd reducesTo_S32x128_S_d0_1 (v13 n2 d2) (zero (Shape.Idx.first h_S_)) i = _
  rw [Ideal.hostReduceAdd_total reducesTo_S32x128_S_d0_1 (fun b => b.elim0), zero_apply, zero_add, sum_idx2]
  exact Finset.sum_congr rfl fun k _ => Finset.sum_congr rfl fun f _ => v13_apply n2 d2 k f

/-- v15: term2. -/
theorem v15_apply (n2 : FVec Ideal S2x32x128 .f32) (d2 : FVec Ideal S2x1x32 .f32) (i : S_.Idx) :
    v15 n2 d2 i = Cert.Spec.negTwo * ∑ k : Fin 32, ∑ f : Fin 128, Cn n2 d2 k f * N n2 k f := by
  show Ideal.ofBits .f32 0xC0000000#32 * v14 n2 d2 i = _
  rw [v14_apply]; rfl

/-- v16 at k: the centroid's squared norm times the cluster's mass. -/
theorem v16_apply (n2 : FVec Ideal S2x32x128 .f32) (d2 : FVec Ideal S2x1x32 .f32) (k : Fin 32) :
    v16 n2 d2 (ix1 k) = (∑ f : Fin 128, Cn n2 d2 k f * Cn n2 d2 k f) * D d2 k := by
  show v10 n2 d2 (ix1 k) * v11 d2 (ix1 k) = _
  rw [v10_apply, v11_apply]

/-- v17: term3. -/
theorem v17_apply (n2 : FVec Ideal S2x32x128 .f32) (d2 : FVec Ideal S2x1x32 .f32) (i : S_.Idx) :
    v17 n2 d2 i = ∑ k : Fin 32, (∑ f : Fin 128, Cn n2 d2 k f * Cn n2 d2 k f) * D d2 k := by
  unfold v17
  show Ideal.hostReduceAdd reducesTo_S32_S_d0 (v16 n2 d2) (zero (Shape.Idx.first h_S_)) i = _
  rw [Ideal.hostReduceAdd_total reducesTo_S32_S_d0 (fun b => b.elim0), zero_apply, zero_add, Cert.LibColumns.sum_idx1]
  exact Finset.sum_congr rfl fun k _ => v16_apply n2 d2 k

/-- The scalar result: (term1 + term2 + term3) over the count. -/
theorem v20_eq (n2 : FVec Ideal S2x32x128 .f32) (d2 s2 : FVec Ideal S2x1x32 .f32) :
    v20 n2 d2 s2 = fun _ => Ideal.div ((∑ k : Fin 32, S s2 k)
        + Cert.Spec.negTwo * (∑ k : Fin 32, ∑ f : Fin 128, Cn n2 d2 k f * N n2 k f)
        + (∑ k : Fin 32, (∑ f : Fin 128, Cn n2 d2 k f * Cn n2 d2 k f) * D d2 k)) Cert.Spec.cnt := by
  funext i
  show Ideal.div ((v12 s2 i + v15 n2 d2 i) + v17 n2 d2 i) (Ideal.ofBits .f32 0x4A435000#32) = _
  rw [v12_apply, v15_apply, v17_apply]; rfl

end Cert.KTail

end
-- ==== Proof.KPieces.lean ====
/-
  What one grid point's run of the kernel body leaves in each of the three accumulators, as a value.

  The body's stores are found by the generated run as lists of pieces over the staging buffers; every store here covers
  its whole block from offset zero, so reading a buffer back after the run gives the last store's value, whose loads
  in turn read the whole input tiles and (away from the first point of a run) the accumulator as the point before left it.
  The values are the body's arithmetic (the payload terms) applied to the input tiles and the incoming accumulator.
-/
import proofs.«172377_j24189255811658_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KPieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! A point that is not the first of its run (case B) finds the three accumulators at what the point before left
    (`xo2`, `xo3`, `xo4`) and stores each once, whole: the stored value is the body's arithmetic on the two input tiles
    and the accumulator read back. -/

theorem out_B_2 (c : Dev nD) (i : grid0.Coords) (a2 : Memref sig .tc .vmem S10000x128 .f32) (h2 : a2.IsWhole) (a3 : Memref sig .tc .vmem S10000x32 .f32) (h3 : a3.IsWhole) (a4 : Memref sig .tc .vmem S1x32x128 .f32) (h4 : a4.IsWhole) (a5 : Memref sig .tc .vmem S1x1x32 .f32) (h5 : a5.IsWhole) (a6 : Memref sig .tc .vmem S1x1x32 .f32) (h6 : a6.IsWhole) (hc : ¬cond0_0 i)
    (x0 : Vec F S10000x128 .f32) (x1 : Vec F S10000x32 .f32) (xo2 : Vec F S1x32x128 .f32) (xo3 : Vec F S1x1x32 .f32) (xo4 : Vec F S1x1x32 .f32) :
    out0_B_2 c i a2 h2 a3 h3 a4 h4 a5 h5 a6 h6 hc x0 x1 xo2 xo3 xo4 = k0_pay6 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  rw [View.canon_unit_zero hz3]
  simp only [View.readAt_eq_ld, h2.read_unread, h3.read_unread, h4.read_unread, h5.read_unread, h6.read_unread, View.ld_unit_zero (S := S10000x128) hz2, View.ld_unit_zero (S := S10000x32) hz2, View.ld_unit_zero (S := S1x32x128) hz3, View.ld_unit_zero (S := S1x1x32) hz3]

theorem out_B_3 (c : Dev nD) (i : grid0.Coords) (a2 : Memref sig .tc .vmem S10000x128 .f32) (h2 : a2.IsWhole) (a3 : Memref sig .tc .vmem S10000x32 .f32) (h3 : a3.IsWhole) (a4 : Memref sig .tc .vmem S1x32x128 .f32) (h4 : a4.IsWhole) (a5 : Memref sig .tc .vmem S1x1x32 .f32) (h5 : a5.IsWhole) (a6 : Memref sig .tc .vmem S1x1x32 .f32) (h6 : a6.IsWhole) (hc : ¬cond0_0 i)
    (x0 : Vec F S10000x128 .f32) (x1 : Vec F S10000x32 .f32) (xo2 : Vec F S1x32x128 .f32) (xo3 : Vec F S1x1x32 .f32) (xo4 : Vec F S1x1x32 .f32) :
    out0_B_3 c i a2 h2 a3 h3 a4 h4 a5 h5 a6 h6 hc x0 x1 xo2 xo3 xo4 = k0_pay7 x1 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  rw [View.canon_unit_zero hz3]
  simp only [View.readAt_eq_ld, h2.read_unread, h3.read_unread, h4.read_unread, h5.read_unread, h6.read_unread, View.ld_unit_zero (S := S10000x128) hz2, View.ld_unit_zero (S := S10000x32) hz2, View.ld_unit_zero (S := S1x32x128) hz3, View.ld_unit_zero (S := S1x1x32) hz3]

theorem out_B_4 (c : Dev nD) (i : grid0.Coords) (a2 : Memref sig .tc .vmem S10000x128 .f32) (h2 : a2.IsWhole) (a3 : Memref sig .tc .vmem S10000x32 .f32) (h3 : a3.IsWhole) (a4 : Memref sig .tc .vmem S1x32x128 .f32) (h4 : a4.IsWhole) (a5 : Memref sig .tc .vmem S1x1x32 .f32) (h5 : a5.IsWhole) (a6 : Memref sig .tc .vmem S1x1x32 .f32) (h6 : a6.IsWhole) (hc : ¬cond0_0 i)
    (x0 : Vec F S10000x128 .f32) (x1 : Vec F S10000x32 .f32) (xo2 : Vec F S1x32x128 .f32) (xo3 : Vec F S1x1x32 .f32) (xo4 : Vec F S1x1x32 .f32) :
    out0_B_4 c i a2 h2 a3 h3 a4 h4 a5 h5 a6 h6 hc x0 x1 xo2 xo3 xo4 = k0_pay1 (k0_pay8 xo4) (k0_pay9 x0 x1) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S10000x128) hz2, View.ld_unit_zero (S := S10000x32) hz2, View.ld_unit_zero (S := S1x32x128) hz3, View.ld_unit_zero (S := S1x1x32) hz3]

/-! The first point of a run (case A) first stores the zero block into each accumulator, reads it back, and then stores
    as every other point does: the accumulator it adds to is the zero block. -/

theorem out_A_2 (c : Dev nD) (i : grid0.Coords) (a2 : Memref sig .tc .vmem S10000x128 .f32) (h2 : a2.IsWhole) (a3 : Memref sig .tc .vmem S10000x32 .f32) (h3 : a3.IsWhole) (a4 : Memref sig .tc .vmem S1x32x128 .f32) (h4 : a4.IsWhole) (a5 : Memref sig .tc .vmem S1x1x32 .f32) (h5 : a5.IsWhole) (a6 : Memref sig .tc .vmem S1x1x32 .f32) (h6 : a6.IsWhole) (hc : cond0_0 i)
    (x0 : Vec F S10000x128 .f32) (x1 : Vec F S10000x32 .f32) :
    out0_A_2 c i a2 h2 a3 h3 a4 h4 a5 h5 a6 h6 hc x0 x1 = k0_pay6 x0 x1 k0_pay2 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x32x128) hz3, View.readCov_unit_zero (S := S1x32x128) _ hz3]
  simp only [View.readAt_eq_ld, h2.read_unread, h3.read_unread, View.ld_unit_zero (S := S10000x128) hz2, View.ld_unit_zero (S := S10000x32) hz2]

theorem out_A_3 (c : Dev nD) (i : grid0.Coords) (a2 : Memref sig .tc .vmem S10000x128 .f32) (h2 : a2.IsWhole) (a3 : Memref sig .tc .vmem S10000x32 .f32) (h3 : a3.IsWhole) (a4 : Memref sig .tc .vmem S1x32x128 .f32) (h4 : a4.IsWhole) (a5 : Memref sig .tc .vmem S1x1x32 .f32) (h5 : a5.IsWhole) (a6 : Memref sig .tc .vmem S1x1x32 .f32) (h6 : a6.IsWhole) (hc : cond0_0 i)
    (x0 : Vec F S10000x128 .f32) (x1 : Vec F S10000x32 .f32) :
    out0_A_3 c i a2 h2 a3 h3 a4 h4 a5 h5 a6 h6 hc x0 x1 = k0_pay7 x1 k0_pay3 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, View.ld_unit_zero (S := S10000x128) hz2, View.ld_unit_zero (S := S10000x32) hz2]

theorem out_A_4 (c : Dev nD) (i : grid0.Coords) (a2 : Memref sig .tc .vmem S10000x128 .f32) (h2 : a2.IsWhole) (a3 : Memref sig .tc .vmem S10000x32 .f32) (h3 : a3.IsWhole) (a4 : Memref sig .tc .vmem S1x32x128 .f32) (h4 : a4.IsWhole) (a5 : Memref sig .tc .vmem S1x1x32 .f32) (h5 : a5.IsWhole) (a6 : Memref sig .tc .vmem S1x1x32 .f32) (h6 : a6.IsWhole) (hc : cond0_0 i)
    (x0 : Vec F S10000x128 .f32) (x1 : Vec F S10000x32 .f32) :
    out0_A_4 c i a2 h2 a3 h3 a4 h4 a5 h5 a6 h6 hc x0 x1 = k0_pay1 (k0_pay8 k0_pay4) (k0_pay9 x0 x1) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, View.ld_unit_zero (S := S10000x128) hz2, View.ld_unit_zero (S := S10000x32) hz2]

end Cert.KPieces
end
-- ==== Proof.KSteps.lean ====
/-
  The three accumulators from one grid point to the next.

  The grid's ten points run in two runs of five (one run per core). At the first point of a run each accumulator is
  the body's arithmetic on the point's two input tiles over the ZERO block; at every other point it is the same
  arithmetic over what the point before left.
-/
import proofs.«172377_j24189255811658_2_alg».proof.Proof.KPieces

set_option maxRecDepth 16384

noncomputable section

open Idealize.ShloMosaic Idealize.ShloMosaic.TcCoe Idealize.SL.Sem
open Idealize.ShloMosaic.Pipeline (Dat)

namespace Cert.KSteps

open Cert.KernelIdeal Cert.KernelIdeal.Gen

variable {F : FTy → Type} [FloatOps F]
variable (m : (ℓ : Loc nD τ sig) → Buf (Elt F) ℓ)

/-- At the first point of a run the accumulators start from the zero blocks. (Window 0's block at the point is the X
    tile, window 1's the W tile.) -/
theorem outs_first (c : Dev nD) (t : Fin cfg0.N) (h0 : t.val % 5 = 0) :
    outsAt0 m c t.val t.isLt
      = (k0_pay6 (iblk m c 0 t) (iblk m c 1 t) k0_pay2, k0_pay7 (iblk m c 1 t) k0_pay3,
          k0_pay1 (k0_pay8 k0_pay4) (k0_pay9 (iblk m c 0 t) (iblk m c 1 t))) := by
  rw [outsAt0_A m c t h0, Cert.KPieces.out_A_2, Cert.KPieces.out_A_3, Cert.KPieces.out_A_4]

/-- At any other point they continue from what the point before left. -/
theorem outs_next (c : Dev nD) (t : Fin cfg0.N) (h0 : ¬t.val % 5 = 0) :
    outsAt0 m c t.val t.isLt
      = (k0_pay6 (iblk m c 0 t) (iblk m c 1 t) (outsAt0 m c (t.val - 1) (Nat.lt_of_le_of_lt (Nat.sub_le _ _) t.isLt)).1,
          k0_pay7 (iblk m c 1 t) (outsAt0 m c (t.val - 1) (Nat.lt_of_le_of_lt (Nat.sub_le _ _) t.isLt)).2.1,
          k0_pay1 (k0_pay8 (outsAt0 m c (t.val - 1) (Nat.lt_of_le_of_lt (Nat.sub_le _ _) t.isLt)).2.2) (k0_pay9 (iblk m c 0 t) (iblk m c 1 t))) := by
  rw [outsAt0_B m c t h0, Cert.KPieces.out_B_2, Cert.KPieces.out_B_3, Cert.KPieces.out_B_4]

end Cert.KSteps
end
-- ==== Proof.LibDotAtB.lean ====
/-
  The product of a transposed matrix with a matrix, read at an index.

  For a dot record over a [K, M] left operand and a [K, N] right operand that contracts the FIRST axis of each
  (the product Aᵀ·B, an [M, N] array), the contraction sum at the output index (i, j) runs over the K common rows:
  it is the sum over k of the left operand at (k, i) times the right operand at (k, j). The record's coordinate
  facts are hypotheses, which a literal record discharges by `rfl`; the statement serves the accelerator's matmul
  and the host's dot_general alike.
-/
import Idealize.ShloMosaic.PureOps.Ideal.Laws
import Idealize.ShloMosaic.PureOps.Dims
import Idealize.ShloMosaic.Lib.ValueIdx

noncomputable section

namespace Cert.LibDotAtB

open Idealize.ShloMosaic Idealize.ShloMosaic.ValueIdx

/-- GENERAL LEMMA. The contraction sum of an Aᵀ·B record at an output index is the sum over the common rows. -/
theorem contr_sum {K M N : ℕ} {R : Type*} [AddCommMonoid R] [Mul R]
    (d : DotDims (⟨2, ![K, M]⟩ : Shape) (⟨2, ![K, N]⟩ : Shape) (⟨2, ![M, N]⟩ : Shape))
    (hl : d.lhsContracting = [0]) (hr : d.rhsContracting = [0])
    (hl1 : ∀ j k, (d.lhsIdx j k 1).val = (j 0).val) (hr1 : ∀ j k, (d.rhsIdx j k 1).val = (j 1).val)
    (l : (⟨2, ![K, M]⟩ : Shape).Idx → R) (r : (⟨2, ![K, N]⟩ : Shape).Idx → R) (j : (⟨2, ![M, N]⟩ : Shape).Idx) :
    ∑ k : d.contr.Idx, l (d.lhsIdx j k) * r (d.rhsIdx j k) = ∑ k : Fin K, l (ix2 k (j 0)) * r (ix2 k (j 1)) := by
  have hrk : d.contr.rank = 1 := by rw [d.rank_contr, hl]; rfl
  have hs : d.contr.size ⟨0, by omega⟩ = K := by
    rw [d.size_contr 0 (by rw [hl]; exact Nat.one_pos)]
    simp [hl]
  rw [← Equiv.sum_comp (contrEquiv1 d K hrk hs).symm]
  refine Finset.sum_congr rfl fun k _ => ?_
  have el : d.lhsIdx j ((contrEquiv1 d K hrk hs).symm k) = ix2 k (j 0) := funext fun a => Fin.ext (by
    match a with
    | ⟨0, _⟩ => exact (d.lhsIdx_val_of_single hl j _).trans (contrEquiv1_symm_val d K hrk hs k)
    | ⟨1, _⟩ => exact hl1 j _)
  have er : d.rhsIdx j ((contrEquiv1 d K hrk hs).symm k) = ix2 k (j 1) := funext fun a => Fin.ext (by
    match a with
    | ⟨0, _⟩ => exact (d.rhsIdx_val_of_single hr j _).trans (contrEquiv1_symm_val d K hrk hs k)
    | ⟨1, _⟩ => exact hr1 j _)
  exact congrArg₂ (· * ·) (congrArg l el) (congrArg r er)

/-- GENERAL LEMMA. The accelerator's matmul of such a record into the zero accumulator, at the exact values. -/
theorem matmul_zero_apply {K M N : ℕ} {φ₁ φ₂ : FTy}
    (d : DotDims (⟨2, ![K, M]⟩ : Shape) (⟨2, ![K, N]⟩ : Shape) (⟨2, ![M, N]⟩ : Shape))
    (hl : d.lhsContracting = [0]) (hr : d.rhsContracting = [0])
    (hl1 : ∀ j k, (d.lhsIdx j k 1).val = (j 0).val) (hr1 : ∀ j k, (d.rhsIdx j k 1).val = (j 1).val)
    (prec : Option ContractPrecision)
    (l : FVec Ideal (⟨2, ![K, M]⟩ : Shape) φ₁) (r : FVec Ideal (⟨2, ![K, N]⟩ : Shape) φ₂) (i : Fin M) (j : Fin N) :
    matmul d prec l r (constant (⟨2, ![M, N]⟩ : Shape) .f32 0x00000000#32) (ix2 i j) = ∑ k : Fin K, l (ix2 k i) * r (ix2 k j) :=
  (Ideal.matmul_constant_zero_apply d prec l r (ix2 i j)).trans (contr_sum d hl hr hl1 hr1 l r (ix2 i j))

end Cert.LibDotAtB

end
-- ==== Proof.LibLaneSum.lean ====
/-
  A lane sum read at a row.

  Summing an [a, b] array over its second axis onto the zero accumulator gives an [a] vector whose entry p is, at the
  exact values, the sum over k of the entries (p, k): the index the reduction reads for row p and position k is (p, k),
  and at the exact values the reduction is the plain sum whatever its order.
-/
import Idealize.ShloMosaic.Lib.Pipeline.Value
import Idealize.ShloMosaic.Lib.ValueIdx
import Idealize.ShloMosaic.PureOps.Ideal.Laws

noncomputable section

namespace Cert.LibLaneSum

open Idealize.ShloMosaic Idealize.ShloMosaic.ValueIdx

/-- GENERAL LEMMA. The index a reduction over axis 1 of an [a, b] array reads for row `p` and position `k` is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- GENERAL LEMMA. A float sum over axis 1 of an [a, b] array, at the exact values and onto the zero accumulator, is
    at row `p` the sum over `k` of the entries `(p, k)`. The accumulator fact is taken in the form a printed program
    carries it (the zero word equal to itself). -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.KPayload.lean ====
import proofs.«172377_j24189255811658_2_alg».proof.Proof.Gen.KernelIdeal.Skeleton
import proofs.«172377_j24189255811658_2_alg».proof.Proof.LibDotAtB
import proofs.«172377_j24189255811658_2_alg».proof.Proof.LibColumns
import proofs.«172377_j24189255811658_2_alg».proof.Proof.LibKeepdims
import proofs.«172377_j24189255811658_2_alg».proof.Proof.LibLaneSum
import Idealize.ShloMosaic.Lib.Pipeline.Value
import Idealize.ShloMosaic.Lib.ValueLayout
import Idealize.ShloMosaic.Lib.ValueIdx
import Idealize.ShloMosaic.PureOps.Ideal.Laws

noncomputable section

namespace Cert.KPayload

open Cert.KernelIdeal Cert.KernelIdeal.Gen Cert.KernelIdeal.Facts₀ Cert.KernelIdeal.Facts
open Idealize.ShloMosaic Idealize.ShloMosaic.ValueIdx
open scoped BigOperators
open Cert.LibLaneSum (sum_axis1_apply)

variable [Cert.KernelIdeal.Facts]

/-- The tile's contribution to the weighted feature sums: over the tile's rows r, the squared weight
    of row r for cluster k times feature f of row r. -/
def T2 (x0 : Vec Ideal S10000x128 .f32) (x1 : Vec Ideal S10000x32 .f32) (k : Fin 32) (f : Fin 128) : EReal :=
  ∑ r : Fin 10000, (x1 (ix2 r k) * x1 (ix2 r k)) * x0 (ix2 r f)

/-- The tile's contribution to the cluster masses: the column sum of the squared weights. -/
def T3 (x1 : Vec Ideal S10000x32 .f32) (k : Fin 32) : EReal :=
  ∑ r : Fin 10000, x1 (ix2 r k) * x1 (ix2 r k)

/-- The tile's contribution to the weighted squared norms: over the rows, the squared weight times the
    row's squared norm. -/
def T4 (x0 : Vec Ideal S10000x128 .f32) (x1 : Vec Ideal S10000x32 .f32) (k : Fin 32) : EReal :=
  ∑ r : Fin 10000, (x1 (ix2 r k) * x1 (ix2 r k)) * (∑ f : Fin 128, x0 (ix2 r f) * x0 (ix2 r f))

/-- The left operand's free coordinate in the product of the transposed weights with the samples
    is the output's row. -/
theorem lhs_free (i : S32x128.Idx) (q : dot_S10000x32_S10000x128_S32x128_0_0_1_1_n_n.contr.Idx) :
    (dot_S10000x32_S10000x128_S32x128_0_0_1_1_n_n.lhsIdx i q 1).val = (i 0).val := by
  unfold DotDims.lhsIdx
  rw [dif_neg (show ¬(1 : Fin S10000x32.rank) ∈ dot_S10000x32_S10000x128_S32x128_0_0_1_1_n_n.lhsBatch by decide),
    dif_pos (show (1 : Fin S10000x32.rank) ∈ dot_S10000x32_S10000x128_S32x128_0_0_1_1_n_n.lhsNonContracting by decide)]
  rfl

/-- The right operand's free coordinate is the output's column. -/
theorem rhs_free (i : S32x128.Idx) (q : dot_S10000x32_S10000x128_S32x128_0_0_1_1_n_n.contr.Idx) :
    (dot_S10000x32_S10000x128_S32x128_0_0_1_1_n_n.rhsIdx i q 1).val = (i 1).val := by
  unfold DotDims.rhsIdx
  rw [dif_neg (show ¬(1 : Fin S10000x128.rank) ∈ dot_S10000x32_S10000x128_S32x128_0_0_1_1_n_n.rhsBatch by decide),
    dif_pos (show (1 : Fin S10000x128.rank) ∈ dot_S10000x32_S10000x128_S32x128_0_0_1_1_n_n.rhsNonContracting by decide)]
  rfl

/-- The only coordinate of a unit axis is 0. -/
theorem unit_eq (u : Fin 1) : u = 0 := Subsingleton.elim _ _

/-- The feature-sum block after one tile: the block before plus the tile's contribution. -/
theorem pay6_apply (x0 : Vec Ideal S10000x128 .f32) (x1 : Vec Ideal S10000x32 .f32)
    (acc : Vec Ideal S1x32x128 .f32) (u : Fin 1) (k : Fin 32) (f : Fin 128) :
    k0_pay6 (F := Ideal) x0 x1 acc (ix3 u k f) = acc (ix3 u k f) + T2 x0 x1 k f := by
  unfold k0_pay6
  refine (shapeCast_ab_1ab_apply _ _ u k f).trans ?_
  refine congrArg₂ (· + ·) ?_ ?_
  · refine (shapeCast_1ab_ab_apply acc _ k f).trans ?_
    rw [unit_eq u]
  · exact Cert.LibDotAtB.matmul_zero_apply dot_S10000x32_S10000x128_S32x128_0_0_1_1_n_n rfl rfl
      lhs_free rhs_free none (k0_pay5 x1) x0 k f

/-- The mass block after one tile: the block before plus the tile's column sums of squared weights. -/
theorem pay7_apply (x1 : Vec Ideal S10000x32 .f32) (acc : Vec Ideal S1x1x32 .f32)
    (u v : Fin 1) (k : Fin 32) :
    k0_pay7 (F := Ideal) x1 acc (ix3 u v k) = acc (ix3 u v k) + T3 x1 k := by
  unfold k0_pay7
  refine (shapeCast_ab_1ab_apply _ _ u v k).trans ?_
  refine congrArg₂ (· + ·) ?_ ?_
  · refine (shapeCast_1ab_ab_apply acc _ v k).trans ?_
    rw [unit_eq u]
  · refine (shapeCast_a_1a_apply _ _ v k).trans ?_
    exact Cert.LibColumns.sum_axis0_apply (k0_pay5 x1) _ _ _ k

/-- The squared norm of row r of the tile, as the lane sum the kernel takes, kept as a column and
    repeated along the clusters. -/
theorem rowsq_apply (x0 : Vec Ideal S10000x128 .f32)
    (hr : S10000x128.Reduces [1] S10000) (hφ : FKind.Formats .f32)
    (hacc : (0x00000000#32 : BitVec 32) = 0x00000000#32)
    (hc : S10000.ShapeCasts S10000x1) (hb : S10000x1.Broadcasts S10000x32) (r : Fin 10000) (k : Fin 32) :
    broadcastTo S10000x32
        (shapeCast S10000x1
          (multiReduction (F := Ideal) .add [1] S10000 (mulf x0 x0) 0x00000000#32 hr hφ hacc) hc)
        hb (ix2 r k)
      = ∑ f : Fin 128, x0 (ix2 r f) * x0 (ix2 r f) := by
  refine (Cert.LibKeepdims.broadcastTo_a1_ab_apply _ hb r k).trans ?_
  refine (Cert.LibKeepdims.shapeCast_a_a1_apply _ hc r 0).trans ?_
  exact sum_axis1_apply (mulf x0 x0) hr hφ hacc r

/-- The weighted-norm block after one tile: the block before plus, per cluster, the tile's sum of
    squared weight times squared row norm. -/
theorem pay1_apply (x0 : Vec Ideal S10000x128 .f32) (x1 : Vec Ideal S10000x32 .f32)
    (acc : Vec Ideal S1x1x32 .f32) (u v : Fin 1) (k : Fin 32) :
    k0_pay1 (F := Ideal) (k0_pay8 acc) (k0_pay9 x0 x1) (ix3 u v k) = acc (ix3 u v k) + T4 x0 x1 k := by
  unfold k0_pay1
  refine (shapeCast_ab_1ab_apply _ _ u v k).trans ?_
  refine congrArg₂ (· + ·) ?_ ?_
  · unfold k0_pay8
    refine (shapeCast_1ab_ab_apply acc _ v k).trans ?_
    rw [unit_eq u]
  · unfold k0_pay9
    refine (shapeCast_a_1a_apply _ _ v k).trans ?_
    refine (Cert.LibColumns.sum_axis0_apply _ _ _ _ k).trans ?_
    unfold T4
    refine Finset.sum_congr rfl fun r _ => ?_
    exact congrArg (fun t => (x1 (ix2 r k) * x1 (ix2 r k)) * t) (rowsq_apply x0 _ _ _ _ _ r k)

/-- The zero block a run of tiles starts its feature sums from. -/
theorem pay2_apply (j : S1x32x128.Idx) : k0_pay2 (F := Ideal) j = 0 := by
  obtain ⟨u, k, f, rfl⟩ : ∃ (u : Fin 1) (k : Fin 32) (f : Fin 128), j = ix3 u k f := ⟨j 0, j 1, j 2, eq_ix3 j⟩
  unfold k0_pay2
  refine (shapeCast_ab_1ab_apply _ _ u k f).trans ?_
  exact Ideal.ofBits_zero_f32

/-- The zero block a run of tiles starts its masses from. -/
theorem pay3_apply (j : S1x1x32.Idx) : k0_pay3 (F := Ideal) j = 0 := by
  obtain ⟨u, v, k, rfl⟩ : ∃ (u : Fin 1) (v : Fin 1) (k : Fin 32), j = ix3 u v k := ⟨j 0, j 1, j 2, eq_ix3 j⟩
  unfold k0_pay3
  refine (shapeCast_ab_1ab_apply _ _ u v k).trans ?_
  exact Ideal.ofBits_zero_f32

/-- The zero block a run of tiles starts its weighted norms from. -/
theorem pay4_apply (j : S1x1x32.Idx) : k0_pay4 (F := Ideal) j = 0 := by
  obtain ⟨u, v, k, rfl⟩ : ∃ (u : Fin 1) (v : Fin 1) (k : Fin 32), j = ix3 u v k := ⟨j 0, j 1, j 2, eq_ix3 j⟩
  unfold k0_pay4
  refine (shapeCast_ab_1ab_apply _ _ u v k).trans ?_
  exact Ideal.ofBits_zero_f32

end Cert.KPayload

end
-- ==== Proof.LibTileSum.lean ====
/-
  An accumulator carried over a run of consecutive grid points.

  A point-indexed quantity that starts from `z` plus the point's term at the first point of each run of `J` points and
  adds the point's term to its previous value at every other point holds, at offset `j` in a run, `z` plus the terms
  of the run's first `j + 1` points. Only associativity of `+` is used.
-/
import Mathlib.Algebra.BigOperators.Intervals

namespace Cert.TileSum

open Finset

variable {M : Type*} [AddCommMonoid M] {ι : Type*} {N : ℕ}

/-- GENERAL LEMMA. At offset `j` of the run starting at `J * q` the accumulator holds `z` plus the run's first `j + 1` terms. -/
theorem run_at (J : ℕ) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (q : ℕ) (i : ι) : ∀ (j : ℕ), j < J → ∀ (h : J * q + j < N), acc (J * q + j) h i = z + ∑ s ∈ range (j + 1), term (J * q + s) i
  | 0, _, h => by
    rw [h_first _ h (by rw [Nat.add_zero, Nat.mul_mod_right]) i, sum_range_one]
  | j + 1, hj, h => by
    have hne : ¬ (J * q + j + 1) % J = 0 := by
      rw [Nat.add_assoc, Nat.mul_add_mod, Nat.mod_eq_of_lt hj]; exact Nat.succ_ne_zero j
    have hs := h_next (J * q + j) h hne i
    refine hs.trans ?_
    rw [run_at J z acc term h_first h_next q i j (Nat.lt_of_succ_lt hj) (Nat.lt_of_succ_lt h),
      sum_range_succ _ (j + 1), add_assoc]
    rfl

/-- GENERAL LEMMA. At the last point of its run the accumulator holds `z` plus the whole run's terms. -/
theorem run_last (J : ℕ) (hJ : 0 < J) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (t : ℕ) (ht : t < N) (hlast : t % J = J - 1) (i : ι) :
    acc t ht i = z + ∑ s ∈ range J, term (J * (t / J) + s) i := by
  have same : ∀ (u : ℕ) (hu : u < N), u = t → acc u hu i = acc t ht i := fun u hu e => by subst e; rfl
  have h' : J * (t / J) + t % J < N := by rw [Nat.div_add_mod]; exact ht
  rw [← same _ h' (Nat.div_add_mod t J), run_at J z acc term h_first h_next (t / J) i (t % J) (Nat.mod_lt t hJ) h', hlast,
    Nat.sub_add_cancel hJ]

end Cert.TileSum
-- ==== Proof.KAccum.lean ====
/-
  The three accumulators over a run of five consecutive grid points.

  Within a run the accumulator of the weighted feature sums starts, at the run's first point, from the zero block plus
  that point's tile contribution, and at every later point adds the point's tile contribution to what the point
  before left. So at the run's last point it holds zero plus the five tiles' contributions; likewise the cluster
  masses and the weighted squared norms.
-/
import proofs.«172377_j24189255811658_2_alg».proof.Proof.KSteps
import proofs.«172377_j24189255811658_2_alg».proof.Proof.KPayload
import proofs.«172377_j24189255811658_2_alg».proof.Proof.LibTileSum

set_option maxRecDepth 16384

noncomputable section

open Idealize.ShloMosaic Idealize.ShloMosaic.TcCoe Idealize.SL.Sem

namespace Cert.KAccum

open Cert.KernelIdeal Cert.KernelIdeal.Gen Idealize.ShloMosaic.ValueIdx

variable (m : (ℓ : Loc nD τ sig) → Buf (Elt Ideal) ℓ)

/-- The contribution of point n's tiles to the weighted feature sum of cluster k and feature f
    (zero past the grid). -/
def term2 (c : Dev nD) (n : ℕ) (k : Fin 32) (f : Fin 128) : EReal :=
  if h : n < cfg0.N then Cert.KPayload.T2 (iblk m c 0 ⟨n, h⟩) (iblk m c 1 ⟨n, h⟩) k f else 0

/-- The contribution of point n's weight tile to the mass of cluster k (zero past the grid). -/
def term3 (c : Dev nD) (n : ℕ) (k : Fin 32) : EReal :=
  if h : n < cfg0.N then Cert.KPayload.T3 (iblk m c 1 ⟨n, h⟩) k else 0

/-- The contribution of point n's tiles to the weighted squared norms of cluster k (zero past the grid). -/
def term4 (c : Dev nD) (n : ℕ) (k : Fin 32) : EReal :=
  if h : n < cfg0.N then Cert.KPayload.T4 (iblk m c 0 ⟨n, h⟩) (iblk m c 1 ⟨n, h⟩) k else 0

/-! ## The weighted feature sums -/

/-- At the first point of a run: zero plus the point's contribution. -/
theorem first2 (c : Dev nD) (n : ℕ) (h : n < cfg0.N) (h0 : n % 5 = 0) (k : Fin 32) (f : Fin 128) :
    (outsAt0 m c n h).1 (ix3 (0 : Fin 1) k f) = 0 + term2 m c n k f := by
  have e : outsAt0 m c n h = _ := Cert.KSteps.outs_first m c ⟨n, h⟩ h0
  rw [e]
  unfold term2
  rw [dif_pos h]
  refine (Cert.KPayload.pay6_apply (iblk m c 0 ⟨n, h⟩) (iblk m c 1 ⟨n, h⟩) (k0_pay2 (F := Ideal)) 0 k f).trans ?_
  rw [Cert.KPayload.pay2_apply]

/-- At any other point: what the point before left plus the point's contribution. -/
theorem next2 (c : Dev nD) (n : ℕ) (h : n + 1 < cfg0.N) (h0 : ¬ (n + 1) % 5 = 0) (k : Fin 32) (f : Fin 128) :
    (outsAt0 m c (n + 1) h).1 (ix3 (0 : Fin 1) k f)
      = (outsAt0 m c n (Nat.lt_of_succ_lt h)).1 (ix3 (0 : Fin 1) k f) + term2 m c (n + 1) k f := by
  have e : outsAt0 m c (n + 1) h = _ := Cert.KSteps.outs_next m c ⟨n + 1, h⟩ h0
  rw [e]
  unfold term2
  rw [dif_pos h]
  exact Cert.KPayload.pay6_apply (iblk m c 0 ⟨n + 1, h⟩) (iblk m c 1 ⟨n + 1, h⟩)
    (outsAt0 m c n (Nat.lt_of_succ_lt h)).1 0 k f

/-- At the last point of a run: zero plus the run's five contributions. -/
theorem acc2_last (c : Dev nD) (t : Fin cfg0.N) (ht : t.val % 5 = 4) (k : Fin 32) (f : Fin 128) :
    (outsAt0 m c t.val t.isLt).1 (ix3 (0 : Fin 1) k f)
      = 0 + ∑ s ∈ Finset.range 5, term2 m c (5 * (t.val / 5) + s) k f :=
  Cert.TileSum.run_last (M := EReal) (ι := Fin 32 × Fin 128) (N := cfg0.N) 5 (by decide) 0
    (fun n h i => (outsAt0 m c n h).1 (ix3 (0 : Fin 1) i.1 i.2)) (fun n i => term2 m c n i.1 i.2)
    (fun n h h0 i => first2 m c n h h0 i.1 i.2) (fun n h h0 i => next2 m c n h h0 i.1 i.2)
    t.val t.isLt ht (k, f)

/-! ## The cluster masses -/

/-- At the first point of a run: zero plus the point's contribution. -/
theorem first3 (c : Dev nD) (n : ℕ) (h : n < cfg0.N) (h0 : n % 5 = 0) (k : Fin 32) :
    (outsAt0 m c n h).2.1 (ix3 (0 : Fin 1) (0 : Fin 1) k) = 0 + term3 m c n k := by
  have e : outsAt0 m c n h = _ := Cert.KSteps.outs_first m c ⟨n, h⟩ h0
  rw [e]
  unfold term3
  rw [dif_pos h]
  refine (Cert.KPayload.pay7_apply (iblk m c 1 ⟨n, h⟩) (k0_pay3 (F := Ideal)) 0 0 k).trans ?_
  rw [Cert.KPayload.pay3_apply]

/-- At any other point: what the point before left plus the point's contribution. -/
theorem next3 (c : Dev nD) (n : ℕ) (h : n + 1 < cfg0.N) (h0 : ¬ (n + 1) % 5 = 0) (k : Fin 32) :
    (outsAt0 m c (n + 1) h).2.1 (ix3 (0 : Fin 1) (0 : Fin 1) k)
      = (outsAt0 m c n (Nat.lt_of_succ_lt h)).2.1 (ix3 (0 : Fin 1) (0 : Fin 1) k) + term3 m c (n + 1) k := by
  have e : outsAt0 m c (n + 1) h = _ := Cert.KSteps.outs_next m c ⟨n + 1, h⟩ h0
  rw [e]
  unfold term3
  rw [dif_pos h]
  exact Cert.KPayload.pay7_apply (iblk m c 1 ⟨n + 1, h⟩)
    (outsAt0 m c n (Nat.lt_of_succ_lt h)).2.1 0 0 k

/-- At the last point of a run: zero plus the run's five contributions. -/
theorem acc3_last (c : Dev nD) (t : Fin cfg0.N) (ht : t.val % 5 = 4) (k : Fin 32) :
    (outsAt0 m c t.val t.isLt).2.1 (ix3 (0 : Fin 1) (0 : Fin 1) k)
      = 0 + ∑ s ∈ Finset.range 5, term3 m c (5 * (t.val / 5) + s) k :=
  Cert.TileSum.run_last (M := EReal) (ι := Fin 32) (N := cfg0.N) 5 (by decide) 0
    (fun n h i => (outsAt0 m c n h).2.1 (ix3 (0 : Fin 1) (0 : Fin 1) i)) (fun n i => term3 m c n i)
    (fun n h h0 i => first3 m c n h h0 i) (fun n h h0 i => next3 m c n h h0 i)
    t.val t.isLt ht k

/-! ## The weighted squared norms -/

/-- At the first point of a run: zero plus the point's contribution. -/
theorem first4 (c : Dev nD) (n : ℕ) (h : n < cfg0.N) (h0 : n % 5 = 0) (k : Fin 32) :
    (outsAt0 m c n h).2.2 (ix3 (0 : Fin 1) (0 : Fin 1) k) = 0 + term4 m c n k := by
  have e : outsAt0 m c n h = _ := Cert.KSteps.outs_first m c ⟨n, h⟩ h0
  rw [e]
  unfold term4
  rw [dif_pos h]
  refine (Cert.KPayload.pay1_apply (iblk m c 0 ⟨n, h⟩) (iblk m c 1 ⟨n, h⟩) (k0_pay4 (F := Ideal)) 0 0 k).trans ?_
  rw [Cert.KPayload.pay4_apply]

/-- At any other point: what the point before left plus the point's contribution. -/
theorem next4 (c : Dev nD) (n : ℕ) (h : n + 1 < cfg0.N) (h0 : ¬ (n + 1) % 5 = 0) (k : Fin 32) :
    (outsAt0 m c (n + 1) h).2.2 (ix3 (0 : Fin 1) (0 : Fin 1) k)
      = (outsAt0 m c n (Nat.lt_of_succ_lt h)).2.2 (ix3 (0 : Fin 1) (0 : Fin 1) k) + term4 m c (n + 1) k := by
  have e : outsAt0 m c (n + 1) h = _ := Cert.KSteps.outs_next m c ⟨n + 1, h⟩ h0
  rw [e]
  unfold term4
  rw [dif_pos h]
  exact Cert.KPayload.pay1_apply (iblk m c 0 ⟨n + 1, h⟩) (iblk m c 1 ⟨n + 1, h⟩)
    (outsAt0 m c n (Nat.lt_of_succ_lt h)).2.2 0 0 k

/-- At the last point of a run: zero plus the run's five contributions. -/
theorem acc4_last (c : Dev nD) (t : Fin cfg0.N) (ht : t.val % 5 = 4) (k : Fin 32) :
    (outsAt0 m c t.val t.isLt).2.2 (ix3 (0 : Fin 1) (0 : Fin 1) k)
      = 0 + ∑ s ∈ Finset.range 5, term4 m c (5 * (t.val / 5) + s) k :=
  Cert.TileSum.run_last (M := EReal) (ι := Fin 32) (N := cfg0.N) 5 (by decide) 0
    (fun n h i => (outsAt0 m c n h).2.2 (ix3 (0 : Fin 1) (0 : Fin 1) i)) (fun n i => term4 m c n i)
    (fun n h h0 i => first4 m c n h h0 i) (fun n h h0 i => next4 m c n h h0 i)
    t.val t.isLt ht k

end Cert.KAccum

end
-- ==== Proof.KFlush.lean ====
/-
  From blocks to arrays, for the kernel's three result arrays, and the two input tiles read at an index.

  The grid has ten points  t = 5 * core + i  (two cores, five steps each).  Each result window's block sits at block
  index (core, 0, 0) = (t / 5, 0, 0) of its array — [1, 32, 128] of [2, 32, 128], [1, 1, 32] of [2, 1, 32] — and is
  written back at a core's last step, the points with t % 5 = 4.  So a result array ends holding a function G as soon
  as, at each of those two points, what the staging buffer holds at (0, k, f) is G at (t / 5, k, f): the two blocks
  written back are G's two core slabs, and together they cover the array.  An input window's block at point t is rows
  10000 * t … 10000 * t + 9999 of its array.
-/
import proofs.«172377_j24189255811658_2_alg».proof.Proof.Gen.KernelIdeal.Frame
import Idealize.ShloMosaic.Lib.Pipeline.Value
import Idealize.ShloMosaic.Lib.ValueIdx

set_option maxRecDepth 16384

noncomputable section

namespace Cert.KFlush

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The grid's arithmetic -/

/-- The core of a point: t / 5 is 0 or 1. -/
theorem core_lt (t : Fin cfg0.N) : t.val / 5 < 2 := by
  have hN : t.val < 10 := lt_of_lt_of_eq t.isLt (show cfg0.N = 10 from N_0)
  omega

/-- Row r of the tile at point t is a row of the array. -/
theorem row_lt (t : Fin cfg0.N) (r : Fin 10000) : 10000 * t.val + r.val < 100000 := by
  have hN : t.val < 10 := lt_of_lt_of_eq t.isLt (show cfg0.N = 10 from N_0)
  have hr := r.isLt
  omega

/-- The last step of core q. -/
def lastOf (q : Fin 2) : Fin cfg0.N := ⟨5 * q.val + 4, by rw [show cfg0.N = 10 from N_0]; have := q.isLt; omega⟩

/-- The block indices, decided once over the grid: an input tile's is (t, 0), a result block's (t / 5, 0, 0). -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_out2 : ∀ t : Fin cfg0.N, win0_2.index t (0 : Fin 3) = t.val / 5 ∧ win0_2.index t (1 : Fin 3) = 0 ∧ win0_2.index t (2 : Fin 3) = 0 :=
  (by decide +kernel : ∀ t : Fin grid0.N, win0_2.index t (0 : Fin 3) = t.val / 5 ∧ win0_2.index t (1 : Fin 3) = 0 ∧ win0_2.index t (2 : Fin 3) = 0)
theorem idx_out3 : ∀ t : Fin cfg0.N, win0_3.index t (0 : Fin 3) = t.val / 5 ∧ win0_3.index t (1 : Fin 3) = 0 ∧ win0_3.index t (2 : Fin 3) = 0 :=
  (by decide +kernel : ∀ t : Fin grid0.N, win0_3.index t (0 : Fin 3) = t.val / 5 ∧ win0_3.index t (1 : Fin 3) = 0 ∧ win0_3.index t (2 : Fin 3) = 0)
theorem idx_out4 : ∀ t : Fin cfg0.N, win0_4.index t (0 : Fin 3) = t.val / 5 ∧ win0_4.index t (1 : Fin 3) = 0 ∧ win0_4.index t (2 : Fin 3) = 0 :=
  (by decide +kernel : ∀ t : Fin grid0.N, win0_4.index t (0 : Fin 3) = t.val / 5 ∧ win0_4.index t (1 : Fin 3) = 0 ∧ win0_4.index t (2 : Fin 3) = 0)

/-! ## The input tiles at an index -/

/-- The sample tile at point t, at (r, f), is the sample array at row 10000 * t + r. -/
theorem xtile_apply (c : Dev nD) (t : Fin cfg0.N) (r : Fin 10000) (f : Fin 128) :
    (iblk m c 0 t : Vec F S10000x128 .f32) (ix2 r f)
      = m ((c : Thread nD τ).loc main_arg0) (ix2 (⟨10000 * t.val + r.val, row_lt t r⟩ : Fin 100000) f) := by
  have hi := idx_in0 t
  unfold iblk
  rw [View.read_apply]
  show V m c main_arg0 _ = m (c.tc.loc main_arg0) _
  rw [V_main_arg0]
  congr 1
  funext a
  apply Fin.ext
  match a with
  | ⟨0, _⟩ => show win0_0.index t 0 * 10000 + 1 * r.val = 10000 * t.val + r.val; rw [hi.1]; omega
  | ⟨1, _⟩ => show win0_0.index t 1 * 128 + 1 * f.val = f.val; rw [hi.2]; omega

/-- The weight tile at point t, at (r, k), is the weight array at row 10000 * t + r. -/
theorem wtile_apply (c : Dev nD) (t : Fin cfg0.N) (r : Fin 10000) (k : Fin 32) :
    (iblk m c 1 t : Vec F S10000x32 .f32) (ix2 r k)
      = m ((c : Thread nD τ).loc main_arg1) (ix2 (⟨10000 * t.val + r.val, row_lt t r⟩ : Fin 100000) k) := by
  have hi := idx_in1 t
  unfold iblk
  rw [View.read_apply]
  show V m c main_arg1 _ = m (c.tc.loc main_arg1) _
  rw [V_main_arg1]
  congr 1
  funext a
  apply Fin.ext
  match a with
  | ⟨0, _⟩ => show win0_1.index t 0 * 10000 + 1 * r.val = 10000 * t.val + r.val; rw [hi.1]; omega
  | ⟨1, _⟩ => show win0_1.index t 1 * 32 + 1 * k.val = k.val; rw [hi.2]; omega

/-! ## The result arrays -/

/-- What a flushing point writes back to result array 0 is its block of G, when the staging buffer holds G's slab of
    the point's core. -/
theorem flushed2_eq (c : Dev nD) (G : Buf (Elt F) ((c : Thread nD τ).loc main_v0_0))
    (h : ∀ (t : Fin cfg0.N) (ht : t.val % 5 = 4) (k : Fin 32) (f : Fin 128),
      (outsAt0 m c t.val t.isLt).1 (ix3 (0 : Fin 1) k f) = (G : S2x32x128.Idx → Elt F .f32) (ix3 (⟨t.val / 5, core_lt t⟩ : Fin 2) k f))
    (t : Fin cfg0.N) (hf : (cfg0.win 2).flush t = true) :
    (dats m 0 c).flushed 2 t = ((cfg0.win 2).blk t).view.read (Elt F) G := by
  have ht : t.val % 5 = 4 := (flush0_2 t).mp hf
  obtain ⟨i0, i1, i2⟩ := idx_out2 t
  show (cfg0.win 2).cut (grid0.coords t) ((dats m 0 c).after 2 t) = _
  rw [after0_2]
  funext j
  rw [View.read_apply]
  have hj0 : (j 0).val < 1 := (j 0).isLt
  have hj1 : (j 1).val < 32 := (j 1).isLt
  have hj2 : (j 2).val < 128 := (j 2).isLt
  show (outsAt0 m c t.val t.isLt).1 ((cfg0.win 2).xinj (grid0.coords t) j) = (G : S2x32x128.Idx → Elt F .f32) (((cfg0.win 2).blk t).view.emb j)
  have e1 : (cfg0.win 2).xinj (grid0.coords t) j = ix3 (0 : Fin 1) (⟨(j 1).val, hj1⟩ : Fin 32) (⟨(j 2).val, hj2⟩ : Fin 128) :=
    funext fun a => Fin.ext (by
      match a with
      | ⟨0, _⟩ => show (j 0).val = 0; omega
      | ⟨1, _⟩ => rfl
      | ⟨2, _⟩ => rfl)
  have e2 : ((cfg0.win 2).blk t).view.emb j = ix3 (⟨t.val / 5, core_lt t⟩ : Fin 2) (⟨(j 1).val, hj1⟩ : Fin 32) (⟨(j 2).val, hj2⟩ : Fin 128) :=
    funext fun a => Fin.ext (by
      match a with
      | ⟨0, _⟩ => show win0_2.index t 0 * 1 + 1 * (j 0).val = t.val / 5; rw [i0]; omega
      | ⟨1, _⟩ => show win0_2.index t 1 * 32 + 1 * (j 1).val = (j 1).val; rw [i1]; omega
      | ⟨2, _⟩ => show win0_2.index t 2 * 128 + 1 * (j 2).val = (j 2).val; rw [i2]; omega)
  rw [e1, e2]
  exact h t ht _ _

/-- An index of result array 0 is in point t's block iff each coordinate is in the block's range on its axis. -/
theorem mem_blk2 (t : Fin cfg0.N) (i : S2x32x128.Idx) :
    i ∈ ((cfg0.win 2).blk t).view.set ↔ ∀ a : Fin 3, win0_2.index t a * S1x32x128.size a ≤ (i a).val ∧ (i a).val < win0_2.index t a * S1x32x128.size a + S1x32x128.size a := by
  show i ∈ ((View.whole main_v0_0).slice (win0_2.rect t)).set ↔ _
  rw [View.set_slice_whole, Rect.mem_set_unit]
  exact Iff.rfl

/-- Result array 0 after the run is G: the two cores' last steps write back G's two slabs, which cover the array. -/
theorem final2 (c : Dev nD) (G : Buf (Elt F) ((c : Thread nD τ).loc main_v0_0))
    (h : ∀ (t : Fin cfg0.N) (ht : t.val % 5 = 4) (k : Fin 32) (f : Fin 128),
      (outsAt0 m c t.val t.isLt).1 (ix3 (0 : Fin 1) k f) = (G : S2x32x128.Idx → Elt F .f32) (ix3 (⟨t.val / 5, core_lt t⟩ : Fin 2) k f)) :
    (dats m 0 c).arrAt 2 cfg0.N = G :=
  (dats m 0 c).arrAt_eq_of_cover 2 G (flushed2_eq m c G h) fun i => by
    have hq : (lastOf (i 0)).val = 5 * (i 0).val + 4 := rfl
    have h0 : (i 0).val < 2 := (i 0).isLt
    have h1 : (i 1).val < 32 := (i 1).isLt
    have h2 : (i 2).val < 128 := (i 2).isLt
    obtain ⟨i0, i1, i2⟩ := idx_out2 (lastOf (i 0))
    refine ⟨lastOf (i 0), (flush0_2 _).mpr (by rw [hq]; omega), ?_⟩
    rw [mem_blk2]
    intro a
    match a with
    | ⟨0, _⟩ => show win0_2.index (lastOf (i 0)) 0 * 1 ≤ (i 0).val ∧ (i 0).val < win0_2.index (lastOf (i 0)) 0 * 1 + 1; rw [i0, hq]; omega
    | ⟨1, _⟩ => show win0_2.index (lastOf (i 0)) 1 * 32 ≤ (i 1).val ∧ (i 1).val < win0_2.index (lastOf (i 0)) 1 * 32 + 32; rw [i1]; omega
    | ⟨2, _⟩ => show win0_2.index (lastOf (i 0)) 2 * 128 ≤ (i 2).val ∧ (i 2).val < win0_2.index (lastOf (i 0)) 2 * 128 + 128; rw [i2]; omega

/-- What a flushing point writes back to result array 1 is its block of G, when the staging buffer holds G's row of
    the point's core. -/
theorem flushed3_eq (c : Dev nD) (G : Buf (Elt F) ((c : Thread nD τ).loc main_v0_1))
    (h : ∀ (t : Fin cfg0.N) (ht : t.val % 5 = 4) (k : Fin 32),
      (outsAt0 m c t.val t.isLt).2.1 (ix3 (0 : Fin 1) (0 : Fin 1) k) = (G : S2x1x32.Idx → Elt F .f32) (ix3 (⟨t.val / 5, core_lt t⟩ : Fin 2) (0 : Fin 1) k))
    (t : Fin cfg0.N) (hf : (cfg0.win 3).flush t = true) :
    (dats m 0 c).flushed 3 t = ((cfg0.win 3).blk t).view.read (Elt F) G := by
  have ht : t.val % 5 = 4 := (flush0_3 t).mp hf
  obtain ⟨i0, i1, i2⟩ := idx_out3 t
  show (cfg0.win 3).cut (grid0.coords t) ((dats m 0 c).after 3 t) = _
  rw [after0_3]
  funext j
  rw [View.read_apply]
  have hj0 : (j 0).val < 1 := (j 0).isLt
  have hj1 : (j 1).val < 1 := (j 1).isLt
  have hj2 : (j 2).val < 32 := (j 2).isLt
  show (outsAt0 m c t.val t.isLt).2.1 ((cfg0.win 3).xinj (grid0.coords t) j) = (G : S2x1x32.Idx → Elt F .f32) (((cfg0.win 3).blk t).view.emb j)
  have e1 : (cfg0.win 3).xinj (grid0.coords t) j = ix3 (0 : Fin 1) (0 : Fin 1) (⟨(j 2).val, hj2⟩ : Fin 32) :=
    funext fun a => Fin.ext (by
      match a with
      | ⟨0, _⟩ => show (j 0).val = 0; omega
      | ⟨1, _⟩ => show (j 1).val = 0; omega
      | ⟨2, _⟩ => rfl)
  have e2 : ((cfg0.win 3).blk t).view.emb j = ix3 (⟨t.val / 5, core_lt t⟩ : Fin 2) (0 : Fin 1) (⟨(j 2).val, hj2⟩ : Fin 32) :=
    funext fun a => Fin.ext (by
      match a with
      | ⟨0, _⟩ => show win0_3.index t 0 * 1 + 1 * (j 0).val = t.val / 5; rw [i0]; omega
      | ⟨1, _⟩ => show win0_3.index t 1 * 1 + 1 * (j 1).val = 0; rw [i1]; omega
      | ⟨2, _⟩ => show win0_3.index t 2 * 32 + 1 * (j 2).val = (j 2).val; rw [i2]; omega)
  rw [e1, e2]
  exact h t ht _

/-- An index of result array 1 is in point t's block iff each coordinate is in the block's range on its axis. -/
theorem mem_blk3 (t : Fin cfg0.N) (i : S2x1x32.Idx) :
    i ∈ ((cfg0.win 3).blk t).view.set ↔ ∀ a : Fin 3, win0_3.index t a * S1x1x32.size a ≤ (i a).val ∧ (i a).val < win0_3.index t a * S1x1x32.size a + S1x1x32.size a := by
  show i ∈ ((View.whole main_v0_1).slice (win0_3.rect t)).set ↔ _
  rw [View.set_slice_whole, Rect.mem_set_unit]
  exact Iff.rfl

/-- Result array 1 after the run is G: the two cores' last steps write back G's two rows, which cover the array. -/
theorem final3 (c : Dev nD) (G : Buf (Elt F) ((c : Thread nD τ).loc main_v0_1))
    (h : ∀ (t : Fin cfg0.N) (ht : t.val % 5 = 4) (k : Fin 32),
      (outsAt0 m c t.val t.isLt).2.1 (ix3 (0 : Fin 1) (0 : Fin 1) k) = (G : S2x1x32.Idx → Elt F .f32) (ix3 (⟨t.val / 5, core_lt t⟩ : Fin 2) (0 : Fin 1) k)) :
    (dats m 0 c).arrAt 3 cfg0.N = G :=
  (dats m 0 c).arrAt_eq_of_cover 3 G (flushed3_eq m c G h) fun i => by
    have hq : (lastOf (i 0)).val = 5 * (i 0).val + 4 := rfl
    have h0 : (i 0).val < 2 := (i 0).isLt
    have h1 : (i 1).val < 1 := (i 1).isLt
    have h2 : (i 2).val < 32 := (i 2).isLt
    obtain ⟨i0, i1, i2⟩ := idx_out3 (lastOf (i 0))
    refine ⟨lastOf (i 0), (flush0_3 _).mpr (by rw [hq]; omega), ?_⟩
    rw [mem_blk3]
    intro a
    match a with
    | ⟨0, _⟩ => show win0_3.index (lastOf (i 0)) 0 * 1 ≤ (i 0).val ∧ (i 0).val < win0_3.index (lastOf (i 0)) 0 * 1 + 1; rw [i0, hq]; omega
    | ⟨1, _⟩ => show win0_3.index (lastOf (i 0)) 1 * 1 ≤ (i 1).val ∧ (i 1).val < win0_3.index (lastOf (i 0)) 1 * 1 + 1; rw [i1]; omega
    | ⟨2, _⟩ => show win0_3.index (lastOf (i 0)) 2 * 32 ≤ (i 2).val ∧ (i 2).val < win0_3.index (lastOf (i 0)) 2 * 32 + 32; rw [i2]; omega

/-- What a flushing point writes back to result array 2 is its block of G, when the staging buffer holds G's row of
    the point's core. -/
theorem flushed4_eq (c : Dev nD) (G : Buf (Elt F) ((c : Thread nD τ).loc main_v0_2))
    (h : ∀ (t : Fin cfg0.N) (ht : t.val % 5 = 4) (k : Fin 32),
      (outsAt0 m c t.val t.isLt).2.2 (ix3 (0 : Fin 1) (0 : Fin 1) k) = (G : S2x1x32.Idx → Elt F .f32) (ix3 (⟨t.val / 5, core_lt t⟩ : Fin 2) (0 : Fin 1) k))
    (t : Fin cfg0.N) (hf : (cfg0.win 4).flush t = true) :
    (dats m 0 c).flushed 4 t = ((cfg0.win 4).blk t).view.read (Elt F) G := by
  have ht : t.val % 5 = 4 := (flush0_4 t).mp hf
  obtain ⟨i0, i1, i2⟩ := idx_out4 t
  show (cfg0.win 4).cut (grid0.coords t) ((dats m 0 c).after 4 t) = _
  rw [after0_4]
  funext j
  rw [View.read_apply]
  have hj0 : (j 0).val < 1 := (j 0).isLt
  have hj1 : (j 1).val < 1 := (j 1).isLt
  have hj2 : (j 2).val < 32 := (j 2).isLt
  show (outsAt0 m c t.val t.isLt).2.2 ((cfg0.win 4).xinj (grid0.coords t) j) = (G : S2x1x32.Idx → Elt F .f32) (((cfg0.win 4).blk t).view.emb j)
  have e1 : (cfg0.win 4).xinj (grid0.coords t) j = ix3 (0 : Fin 1) (0 : Fin 1) (⟨(j 2).val, hj2⟩ : Fin 32) :=
    funext fun a => Fin.ext (by
      match a with
      | ⟨0, _⟩ => show (j 0).val = 0; omega
      | ⟨1, _⟩ => show (j 1).val = 0; omega
      | ⟨2, _⟩ => rfl)
  have e2 : ((cfg0.win 4).blk t).view.emb j = ix3 (⟨t.val / 5, core_lt t⟩ : Fin 2) (0 : Fin 1) (⟨(j 2).val, hj2⟩ : Fin 32) :=
    funext fun a => Fin.ext (by
      match a with
      | ⟨0, _⟩ => show win0_4.index t 0 * 1 + 1 * (j 0).val = t.val / 5; rw [i0]; omega
      | ⟨1, _⟩ => show win0_4.index t 1 * 1 + 1 * (j 1).val = 0; rw [i1]; omega
      | ⟨2, _⟩ => show win0_4.index t 2 * 32 + 1 * (j 2).val = (j 2).val; rw [i2]; omega)
  rw [e1, e2]
  exact h t ht _

/-- An index of result array 2 is in point t's block iff each coordinate is in the block's range on its axis. -/
theorem mem_blk4 (t : Fin cfg0.N) (i : S2x1x32.Idx) :
    i ∈ ((cfg0.win 4).blk t).view.set ↔ ∀ a : Fin 3, win0_4.index t a * S1x1x32.size a ≤ (i a).val ∧ (i a).val < win0_4.index t a * S1x1x32.size a + S1x1x32.size a := by
  show i ∈ ((View.whole main_v0_2).slice (win0_4.rect t)).set ↔ _
  rw [View.set_slice_whole, Rect.mem_set_unit]
  exact Iff.rfl

/-- Result array 2 after the run is G: the two cores' last steps write back G's two rows, which cover the array. -/
theorem final4 (c : Dev nD) (G : Buf (Elt F) ((c : Thread nD τ).loc main_v0_2))
    (h : ∀ (t : Fin cfg0.N) (ht : t.val % 5 = 4) (k : Fin 32),
      (outsAt0 m c t.val t.isLt).2.2 (ix3 (0 : Fin 1) (0 : Fin 1) k) = (G : S2x1x32.Idx → Elt F .f32) (ix3 (⟨t.val / 5, core_lt t⟩ : Fin 2) (0 : Fin 1) k)) :
    (dats m 0 c).arrAt 4 cfg0.N = G :=
  (dats m 0 c).arrAt_eq_of_cover 4 G (flushed4_eq m c G h) fun i => by
    have hq : (lastOf (i 0)).val = 5 * (i 0).val + 4 := rfl
    have h0 : (i 0).val < 2 := (i 0).isLt
    have h1 : (i 1).val < 1 := (i 1).isLt
    have h2 : (i 2).val < 32 := (i 2).isLt
    obtain ⟨i0, i1, i2⟩ := idx_out4 (lastOf (i 0))
    refine ⟨lastOf (i 0), (flush0_4 _).mpr (by rw [hq]; omega), ?_⟩
    rw [mem_blk4]
    intro a
    match a with
    | ⟨0, _⟩ => show win0_4.index (lastOf (i 0)) 0 * 1 ≤ (i 0).val ∧ (i 0).val < win0_4.index (lastOf (i 0)) 0 * 1 + 1; rw [i0, hq]; omega
    | ⟨1, _⟩ => show win0_4.index (lastOf (i 0)) 1 * 1 ≤ (i 1).val ∧ (i 1).val < win0_4.index (lastOf (i 0)) 1 * 1 + 1; rw [i1]; omega
    | ⟨2, _⟩ => show win0_4.index (lastOf (i 0)) 2 * 32 ≤ (i 2).val ∧ (i 2).val < win0_4.index (lastOf (i 0)) 2 * 32 + 32; rw [i2]; omega

end Cert.KFlush

end
-- ==== Proof.LibSumBlocks.lean ====
/-
  Sums over a range cut into consecutive blocks, and a running sum that adds one term per step.

  In a commutative additive monoid (the extended reals under `+` are one) a sum over `a * b` consecutive
  indices is the sum over `a` blocks of the sums inside each block of length `b`, and a value built by
  starting from `z + f 0` and adding `f (n + 1)` at each later step is `z` plus the sum of the terms met so far.
  Nothing here needs more than associativity and commutativity of `+`, so it holds at infinite values too.
-/
import Mathlib.Algebra.BigOperators.Intervals
import Mathlib.Algebra.BigOperators.Fin

namespace Cert.SumBlocks

open Finset

variable {M : Type*} [AddCommMonoid M]

/-- GENERAL LEMMA. A sum over `a * b` consecutive indices, block by block. -/
theorem sum_range_mul (f : ℕ → M) (a b : ℕ) :
    ∑ n ∈ range (a * b), f n = ∑ q ∈ range a, ∑ l ∈ range b, f (q * b + l) := by
  induction a with
  | zero => simp
  | succ a ih =>
    rw [Nat.succ_mul, sum_range_add, ih, sum_range_succ]

/-- The running sum: `z + f 0` after step `0`, one more term at each later step. -/
def run (z : M) (f : ℕ → M) : ℕ → M
  | 0 => z + f 0
  | n + 1 => run z f n + f (n + 1)

/-- The running sum after step `n` is `z` plus the first `n + 1` terms. -/
theorem run_eq (z : M) (f : ℕ → M) (n : ℕ) : run z f n = z + ∑ q ∈ range (n + 1), f q := by
  induction n with
  | zero => simp [run]
  | succ n ih => rw [run, ih, sum_range_succ _ (n + 1), add_assoc]

/-- The running sum that starts from its first term alone (no initial value). -/
def run' (f : ℕ → M) : ℕ → M
  | 0 => f 0
  | n + 1 => run' f n + f (n + 1)

theorem run'_eq (f : ℕ → M) (n : ℕ) : run' f n = ∑ q ∈ range (n + 1), f q := by
  induction n with
  | zero => simp [run']
  | succ n ih => rw [run', ih, sum_range_succ _ (n + 1)]

/-- A sum over `Fin n` of a function of the value is the sum over the range. -/
theorem sum_fin_eq_range (f : ℕ → M) (n : ℕ) : ∑ i : Fin n, f i.val = ∑ i ∈ range n, f i :=
  Fin.sum_univ_eq_sum_range f n

end Cert.SumBlocks
-- ==== Proof.Regroup.lean ====
/-
  Regrouping a sum over 100000 consecutive rows by core, tile and row.

  Two cores each run 5 tiles of 10000 rows: core c, step s and row r meet the row number
  10000 · (5 · c + s) + r, and these are exactly the numbers 0 … 99999, each once, in increasing order:
  100000 = 2 · (5 · 10000), the range splits into 2 consecutive blocks of 5 · 10000, and each block into 5 consecutive
  blocks of 10000. Only associativity and commutativity of + are used (and 0 + a = a), so the statement holds in every
  commutative additive monoid — for the extended reals, at infinite values too.
-/
import proofs.«172377_j24189255811658_2_alg».proof.Proof.LibSumBlocks

namespace Cert.Regroup

open Finset

variable {M : Type*} [AddCommMonoid M]

/-- What one core adds up: its 5 tiles of 10000 rows, the core's first row being q · (5 · 10000). -/
def coreSum (g : ℕ → M) (q : ℕ) : M :=
  ∑ s ∈ range 5, ∑ r ∈ range 10000, g (q * (5 * 10000) + (s * 10000 + r))

/-- The sum over all 100000 rows, core by core. -/
theorem sum_rows_eq_cores (g : ℕ → M) : ∑ b : Fin 100000, g b.val = ∑ q ∈ range 2, coreSum g q := by
  have hn : (100000 : ℕ) = 2 * (5 * 10000) := by omega
  rw [Cert.SumBlocks.sum_fin_eq_range g 100000, hn, Cert.SumBlocks.sum_range_mul g 2 (5 * 10000)]
  exact sum_congr rfl fun q _ => Cert.SumBlocks.sum_range_mul (fun l => g (q * (5 * 10000) + l)) 5 10000

/-- One core's running total, started from 0, is that core's sum. -/
theorem core_eq (g : ℕ → M) (q : ℕ) :
    (0 : M) + ∑ s ∈ range 5, ∑ r : Fin 10000, g (10000 * (5 * q + s) + r.val) = coreSum g q := by
  rw [zero_add]
  refine sum_congr rfl fun s _ => ?_
  refine (Cert.SumBlocks.sum_fin_eq_range (fun r => g (10000 * (5 * q + s) + r)) 10000).trans ?_
  exact sum_congr rfl fun r _ => congrArg g (by omega)

/-- The two cores' totals add up to the sum over all rows. -/
theorem sum_cores_tiles_rows {M : Type*} [AddCommMonoid M] (g : ℕ → M) :
    ∑ core : Fin 2, ((0 : M) + ∑ s ∈ Finset.range 5, ∑ r : Fin 10000, g (10000 * (5 * core.val + s) + r.val))
      = ∑ b : Fin 100000, g b.val :=
  calc ∑ core : Fin 2, ((0 : M) + ∑ s ∈ Finset.range 5, ∑ r : Fin 10000, g (10000 * (5 * core.val + s) + r.val))
      = ∑ core : Fin 2, coreSum g core.val := sum_congr rfl fun core _ => core_eq g core.val
    _ = ∑ q ∈ range 2, coreSum g q := Cert.SumBlocks.sum_fin_eq_range (coreSum g) 2
    _ = ∑ b : Fin 100000, g b.val := (sum_rows_eq_cores g).symm

end Cert.Regroup
-- ==== Proof.KSums.lean ====
/-
  From per-tile terms to the sums over all samples.

  The 100000 samples are cut into 10 tiles of 10000 consecutive rows: row r of tile n is sample 10000 · n + r.
  Two cores each add up 5 tiles (tile 5 · c + s for core c and step s), from 0. When a per-tile term is the sum,
  over the tile's rows, of some summand F at the sample, the cores' totals add up to the sum of F over all samples:
  extend F by 0 beyond 100000 to a function of the natural numbers and regroup the sum over 0 … 99999 by core, tile
  and row. Only + is rearranged, so nothing is assumed of the entries (they may be infinite).
  The three instances are the weighted feature sums N k f, the cluster masses D k and the weighted squared norms S k,
  with the membership weights the squares W b k · W b k.
-/
import proofs.«172377_j24189255811658_2_alg».proof.Proof.Spec
import proofs.«172377_j24189255811658_2_alg».proof.Proof.Regroup

noncomputable section

namespace Cert.KSums

open Finset

/-- Row r of tile n, as one of the 100000 samples. -/
def row (n : ℕ) (hn : n < 10) (r : Fin 10000) : Fin 100000 :=
  ⟨10000 * n + r.val, by have := r.isLt; omega⟩

section General

variable {M : Type*} [AddCommMonoid M]

/-- A function of the samples, extended by 0 to all natural numbers. -/
def total (F : Fin 100000 → M) (n : ℕ) : M := if h : n < 100000 then F ⟨n, h⟩ else 0

/-- At a sample's number the extension is the function itself. -/
theorem total_val (F : Fin 100000 → M) (b : Fin 100000) : total F b.val = F b := by
  unfold total
  exact dif_pos b.isLt

/-- The cores' totals of per-tile sums of F add up to the sum of F over all samples. -/
theorem tiles_eq (F : Fin 100000 → M) (t : ℕ → M)
    (h : ∀ n (hn : n < 10), t n = ∑ r : Fin 10000, F (row n hn r)) :
    ∑ core : Fin 2, ((0 : M) + ∑ s ∈ range 5, t (5 * core.val + s)) = ∑ b : Fin 100000, F b := by
  have ht : ∀ (core : Fin 2) (s : ℕ), s ∈ range 5 →
      t (5 * core.val + s) = ∑ r : Fin 10000, total F (10000 * (5 * core.val + s) + r.val) := by
    intro core s hs
    have hn : 5 * core.val + s < 10 := by
      have h1 := core.isLt
      have h2 := mem_range.1 hs
      omega
    rw [h _ hn]
    exact sum_congr rfl fun r _ => (total_val F (row _ hn r)).symm
  calc ∑ core : Fin 2, ((0 : M) + ∑ s ∈ range 5, t (5 * core.val + s))
      = ∑ core : Fin 2, ((0 : M) + ∑ s ∈ range 5, ∑ r : Fin 10000,
          total F (10000 * (5 * core.val + s) + r.val)) :=
        sum_congr rfl fun core _ => congrArg (fun z => (0 : M) + z) (sum_congr rfl fun s hs => ht core s hs)
    _ = ∑ b : Fin 100000, total F b.val := Cert.Regroup.sum_cores_tiles_rows (total F)
    _ = ∑ b : Fin 100000, F b := sum_congr rfl fun b _ => total_val F b

end General

variable (X : Fin 100000 → Fin 128 → EReal) (W : Fin 100000 → Fin 32 → EReal) (k : Fin 32)

/-- The weighted feature sum N k f from its per-tile parts. -/
theorem num_eq (f : Fin 128) (t2 : ℕ → EReal)
    (h : ∀ n (hn : n < 10), t2 n = ∑ r : Fin 10000, (W (row n hn r) k * W (row n hn r) k) * X (row n hn r) f) :
    ∑ core : Fin 2, (0 + ∑ s ∈ Finset.range 5, t2 (5 * core.val + s)) = Cert.Spec.num X (Cert.Spec.sq W) k f :=
  tiles_eq (fun b => (W b k * W b k) * X b f) t2 h

/-- The cluster mass D k from its per-tile parts. -/
theorem mass_eq (t3 : ℕ → EReal)
    (h : ∀ n (hn : n < 10), t3 n = ∑ r : Fin 10000, W (row n hn r) k * W (row n hn r) k) :
    ∑ core : Fin 2, (0 + ∑ s ∈ Finset.range 5, t3 (5 * core.val + s)) = Cert.Spec.mass (Cert.Spec.sq W) k :=
  tiles_eq (fun b => W b k * W b k) t3 h

/-- The weighted sum of squared norms S k from its per-tile parts. -/
theorem wNorm_eq (t4 : ℕ → EReal)
    (h : ∀ n (hn : n < 10), t4 n = ∑ r : Fin 10000,
      (W (row n hn r) k * W (row n hn r) k) * (∑ f : Fin 128, X (row n hn r) f * X (row n hn r) f)) :
    ∑ core : Fin 2, (0 + ∑ s ∈ Finset.range 5, t4 (5 * core.val + s)) = Cert.Spec.wNorm X (Cert.Spec.sq W) k :=
  tiles_eq (fun b => (W b k * W b k) * (∑ f : Fin 128, X b f * X b f)) t4 h

end Cert.KSums

end
-- ==== Proof.KValue.lean ====
/-
  The kernel's value: its result is the collapsed form of the loss at the two argument arrays.

  Each of the region's three result arrays holds, for each of the two cores, zero plus the five per-tile terms of the
  core's run (the accumulation over a run, then the write-back at the run's last point); adding the two cores'
  entries and regrouping the 2 · 5 · 10000 rows as the 100000 samples gives the weighted feature sums, the cluster
  masses and the weighted squared norms of the specification; the host tail's stages then combine them exactly as the
  collapsed form does.
-/
import proofs.«172377_j24189255811658_2_alg».proof.Proof.KRun
import proofs.«172377_j24189255811658_2_alg».proof.Proof.KTail
import proofs.«172377_j24189255811658_2_alg».proof.Proof.KAccum
import proofs.«172377_j24189255811658_2_alg».proof.Proof.KFlush
import proofs.«172377_j24189255811658_2_alg».proof.Proof.KSums

set_option maxRecDepth 16384

noncomputable section

open Idealize.ShloMosaic Idealize.ShloMosaic.TcCoe Idealize.SL.Sem Idealize.ShloMosaic.ValueIdx
open Idealize.ShloMosaic.Pipeline (Dat)

namespace Cert.KValue

open Cert.KernelIdeal Cert.KernelIdeal.Gen

variable (m : (ℓ : Loc nD τ sig) → Buf (Elt Ideal) ℓ) (ρ : Dev nD → PrngReg)

/-- The argument arrays of core `c` by coordinates: the samples and the raw weights. -/
abbrev Xof (c : Dev nD) : Fin 100000 → Fin 128 → EReal := fun b f => m ((c.tc : Thread nD τ).loc main_arg0) (ix2 b f)
abbrev Wof (c : Dev nD) : Fin 100000 → Fin 32 → EReal := fun b k => m ((c.tc : Thread nD τ).loc main_arg1) (ix2 b k)

/-- The three result arrays as whole-array functions: at core `q`, zero plus the five terms of the core's run. -/
def G2 (c : Dev nD) : Buf (Elt Ideal) ((c : Thread nD τ).loc main_v0_0) :=
  fun i => 0 + ∑ s ∈ Finset.range 5, Cert.KAccum.term2 m c (5 * (i 0).val + s) (i 1) (i 2)
def G3 (c : Dev nD) : Buf (Elt Ideal) ((c : Thread nD τ).loc main_v0_1) :=
  fun i => 0 + ∑ s ∈ Finset.range 5, Cert.KAccum.term3 m c (5 * (i 0).val + s) (i 2)
def G4 (c : Dev nD) : Buf (Elt Ideal) ((c : Thread nD τ).loc main_v0_2) :=
  fun i => 0 + ∑ s ∈ Finset.range 5, Cert.KAccum.term4 m c (5 * (i 0).val + s) (i 2)

theorem arr2_eq (c : Dev nD) : Cert.KRun.arr2 m c = G2 m c :=
  Cert.KFlush.final2 m c (G2 m c) fun t ht k f => Cert.KAccum.acc2_last m c t ht k f
theorem arr3_eq (c : Dev nD) : Cert.KRun.arr3 m c = G3 m c :=
  Cert.KFlush.final3 m c (G3 m c) fun t ht k => Cert.KAccum.acc3_last m c t ht k
theorem arr4_eq (c : Dev nD) : Cert.KRun.arr4 m c = G4 m c :=
  Cert.KFlush.final4 m c (G4 m c) fun t ht k => Cert.KAccum.acc4_last m c t ht k

/-- A tile's number is below the grid's ten points. -/
theorem lt_N {n : ℕ} (hn : n < 10) : n < cfg0.N := lt_of_lt_of_eq hn N_0.symm

/-- Tile `n`'s terms over the argument arrays' rows 10000·n … 10000·n + 9999. -/
theorem term2_rows (c : Dev nD) (k : Fin 32) (f : Fin 128) (n : ℕ) (hn : n < 10) :
    Cert.KAccum.term2 m c n k f = ∑ r : Fin 10000,
      (Wof m c (Cert.KSums.row n hn r) k * Wof m c (Cert.KSums.row n hn r) k) * Xof m c (Cert.KSums.row n hn r) f := by
  unfold Cert.KAccum.term2
  rw [dif_pos (lt_N hn)]
  unfold Cert.KPayload.T2
  refine Finset.sum_congr rfl fun r _ => ?_
  rw [Cert.KFlush.wtile_apply m c ⟨n, lt_N hn⟩ r k, Cert.KFlush.xtile_apply m c ⟨n, lt_N hn⟩ r f]
  rfl

theorem term3_rows (c : Dev nD) (k : Fin 32) (n : ℕ) (hn : n < 10) :
    Cert.KAccum.term3 m c n k = ∑ r : Fin 10000,
      Wof m c (Cert.KSums.row n hn r) k * Wof m c (Cert.KSums.row n hn r) k := by
  unfold Cert.KAccum.term3
  rw [dif_pos (lt_N hn)]
  unfold Cert.KPayload.T3
  refine Finset.sum_congr rfl fun r _ => ?_
  rw [Cert.KFlush.wtile_apply m c ⟨n, lt_N hn⟩ r k]
  rfl

theorem term4_rows (c : Dev nD) (k : Fin 32) (n : ℕ) (hn : n < 10) :
    Cert.KAccum.term4 m c n k = ∑ r : Fin 10000,
      (Wof m c (Cert.KSums.row n hn r) k * Wof m c (Cert.KSums.row n hn r) k)
        * (∑ f : Fin 128, Xof m c (Cert.KSums.row n hn r) f * Xof m c (Cert.KSums.row n hn r) f) := by
  unfold Cert.KAccum.term4
  rw [dif_pos (lt_N hn)]
  unfold Cert.KPayload.T4
  refine Finset.sum_congr rfl fun r _ => ?_
  rw [Cert.KFlush.wtile_apply m c ⟨n, lt_N hn⟩ r k]
  refine congrArg₂ (· * ·) rfl (Finset.sum_congr rfl fun f _ => ?_)
  rw [Cert.KFlush.xtile_apply m c ⟨n, lt_N hn⟩ r f]
  rfl

/-- The two cores' partials added are the specification's sums over all samples. -/
theorem N_eq (c : Dev nD) (k : Fin 32) (f : Fin 128) :
    Cert.KTail.N (Cert.KRun.arr2 m c) k f = Cert.Spec.num (Xof m c) (Cert.Spec.sq (Wof m c)) k f := by
  rw [arr2_eq]
  exact Cert.KSums.num_eq (Xof m c) (Wof m c) k f (fun n => Cert.KAccum.term2 m c n k f) (term2_rows m c k f)

theorem D_eq (c : Dev nD) (k : Fin 32) :
    Cert.KTail.D (Cert.KRun.arr3 m c) k = Cert.Spec.mass (Cert.Spec.sq (Wof m c)) k := by
  rw [arr3_eq]
  exact Cert.KSums.mass_eq (Wof m c) k (fun n => Cert.KAccum.term3 m c n k) (term3_rows m c k)

theorem S_eq (c : Dev nD) (k : Fin 32) :
    Cert.KTail.S (Cert.KRun.arr4 m c) k = Cert.Spec.wNorm (Xof m c) (Cert.Spec.sq (Wof m c)) k := by
  rw [arr4_eq]
  exact Cert.KSums.wNorm_eq (Xof m c) (Wof m c) k (fun n => Cert.KAccum.term4 m c n k) (term4_rows m c k)

/-- The tail's last stage of the three arrays is the collapsed form. -/
theorem value_eq (c : Dev nD) :
    Cert.KTail.v20 (Cert.KRun.arr2 m c) (Cert.KRun.arr3 m c) (Cert.KRun.arr4 m c)
      = fun _ => Cert.Spec.closedLoss (Xof m c) (Cert.Spec.sq (Wof m c)) := by
  rw [Cert.KTail.v20_eq]
  funext _
  unfold Cert.Spec.closedLoss Cert.Spec.cSq Cert.Spec.centroid Cert.KTail.Cn
  simp only [N_eq, D_eq, S_eq]

/-- The kernel's run: the result at the collapsed form of the loss, the arguments unchanged. -/
theorem run : θ_run defs (onTc (τ := τ) (main (F := Ideal))) ⟨m, fun _ => 0, ρ⟩ (fun r => ∀ c : Dev nD,
      r.2.mem ((c.tc : Thread nD τ).loc main_v20) = (fun _ => Cert.Spec.closedLoss (Xof m c) (Cert.Spec.sq (Wof m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value_eq m c), (h c).2⟩) (Cert.KRun.run m ρ)

end Cert.KValue
end
-- ==== Proof.lean ====
/-
  A weighted clustering loss, computed two ways, is one extended real.

  For samples X (100000 × 128) and raw weights W (100000 × 32), with membership weights Wm = W², let
    N k f = ∑ b, Wm b k · X b f,   D k = ∑ b, Wm b k,   C k f = N k f / (D k + ε)   (the centroids).
  The reference sums, over every sample b and cluster k, the squared distance ‖X b‖² − 2·⟨X b, C k⟩ + ‖C k‖² weighted
  by Wm b k, and divides by the count 100000 · 32 (it forms Wm as the power W ^ 2). The kernel streams the samples once:
  two cores each run five tiles of 10000 rows and accumulate, per cluster, the partial sums of N, of D and of
  S k = ∑ b, Wm b k · ‖X b‖² (it forms Wm as the product W · W); the host adds the two cores' partials and evaluates
    ( ∑ k, S k  +  (−2)·∑ k f, C k f · N k f  +  ∑ k, ‖C k‖² · D k ) / count.

  The proof, in the modules this one imports:
    · the kernel's accumulators at a run's last point are zero plus the run's five per-tile terms; written back, they fill
      the three result arrays; the host's stages read at an index, and the 2 · 5 · 10000 rows regrouped as the 100000
      samples, give exactly the collapsed form above at the argument arrays;
    · the reference's stages read at an index give the direct form;
    · on real entries (the precondition makes every input finite) the power W ^ 2 is the product W · W (also for a
      negative W), D k + ε is a positive real, so every centroid is a real, and the direct form equals the collapsed one
      by distributivity and an exchange of finite sums — laws that fail at infinities, which is where finiteness is used.
  The three frames are the programs' runs with the value forgotten; the idealization rewrote nothing, so there is
  nothing to preserve.
-/
import proofs.«172377_j24189255811658_2_alg».proof.Defs
import proofs.«172377_j24189255811658_2_alg».proof.Proof.Gen.Kernel
import proofs.«172377_j24189255811658_2_alg».proof.Proof.Gen.Kernel.Skeleton
import proofs.«172377_j24189255811658_2_alg».proof.Proof.Gen.Kernel.Launch
import proofs.«172377_j24189255811658_2_alg».proof.Proof.Gen.Kernel.Points
import proofs.«172377_j24189255811658_2_alg».proof.Proof.Gen.Kernel.Frame
import proofs.«172377_j24189255811658_2_alg».proof.Proof.Gen.KernelIdeal
import proofs.«172377_j24189255811658_2_alg».proof.Proof.Gen.KernelIdeal.Skeleton
import proofs.«172377_j24189255811658_2_alg».proof.Proof.Gen.KernelIdeal.Launch
import proofs.«172377_j24189255811658_2_alg».proof.Proof.Gen.KernelIdeal.Points
import proofs.«172377_j24189255811658_2_alg».proof.Proof.Gen.KernelIdeal.Frame
import proofs.«172377_j24189255811658_2_alg».proof.Proof.Gen.ReferenceIdeal
import proofs.«172377_j24189255811658_2_alg».proof.Proof.Gen.Pre_finite_inputs
import proofs.«172377_j24189255811658_2_alg».proof.Proof.Gen.ReferenceIdeal.Run
import proofs.«172377_j24189255811658_2_alg».proof.Proof.Gen.ReferenceIdeal.Read
import proofs.«172377_j24189255811658_2_alg».proof.Proof.Spec
import proofs.«172377_j24189255811658_2_alg».proof.Proof.RefForm
import proofs.«172377_j24189255811658_2_alg».proof.Proof.Algebra
import proofs.«172377_j24189255811658_2_alg».proof.Proof.Finite
import proofs.«172377_j24189255811658_2_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- At the exact values, on finite inputs, the kernel ends at the collapsed form of the loss and the reference at the
    direct form, of the same samples and raw weights; on real entries the two forms are equal. -/
theorem algebraic : Cert.algebraic_KernelIdeal_ReferenceIdeal := by
  intro m ρ m' ρ' hpre hagree
  refine ⟨fun c => (fun _ => Cert.Spec.closedLoss (Cert.KValue.Xof m c) (Cert.Spec.sq (Cert.KValue.Wof m c))),
    Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2, Cert.RefForm.ref_eq]
  obtain ⟨hX, hW⟩ := Cert.Finite.entries_real _ _ (hpre c)
  funext _
  exact Cert.Algebra.loss_eq _ _ hX hW

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
